-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S51200x400 : Shape := ⟨2, ![51200, 400]⟩
abbrev S2x819200 : Shape := ⟨2, ![2, 819200]⟩
abbrev S400x256 : Shape := ⟨2, ![400, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S51200x400 : S_.BroadcastsInDim S51200x400 (![] : Fin 0 → Fin S51200x400.rank)
  reducesTo_S51200x400_S_d0_1 : S51200x400.ReducesTo [0, 1] S_
  h_S_ : 0 < S_.numel
  bcast_S_S400x256 : S_.BroadcastsInDim S400x256 (![] : Fin 0 → Fin S400x256.rank)
  reducesTo_S400x256_S_d0_1 : S400x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S256 .f32) (main_arg6 : FVec F S256x2 .f32) (main_arg7 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x2 .f32 := Host.absf main_arg6
  let main_cst_8 : FVec F S_ .f32 := constant S_ .f32 0x7F800000#32
  let main_v25 : FVec F S256x2 .f32 := broadcastInDim S256x2 ![] bcast_S_S256x2 main_cst_8
  let main_v26 : IVec S256x2 1 := cmpf .olt main_v24 main_v25
  let main_c_9 : IVec S_ 1 := constantI S_ 1 1#1
  let main_v27 : IVec S_ 1 := (fun x v => Host.reduce IntOp.andi x v reducesTo_S256x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S51200x400 .f32) (main_arg1 : IVec S2x819200 32) (main_arg2 : FVec F S400x256 .f32) (main_arg3 : FVec F S256 .f32) (main_arg4 : FVec F S256x256 .f32) (main_arg5 : FVec F S256 .f32) (main_arg6 : FVec F S256x2 .f32) (main_arg7 : FVec F S2 .f32) : IVec S_ 1 :=
  let main_v0 : FVec F S51200x400 .f32 := Host.absf main_arg0
  let main_cst : FVec F S_ .f32 := constant S_ .f32 0x7F800000#32
  let main_v1 : FVec F S51200x400 .f32 := broadcastInDim S51200x400 ![] bcast_S_S51200x400 main_cst
  let main_v2 : IVec S51200x400 1 := cmpf .olt main_v0 main_v1
  let main_c : IVec S_ 1 := constantI S_ 1 1#1
  let main_v3 : IVec S_ 1 := (fun x v => Host.reduce IntOp.andi x v reducesTo_S51200x400_S_d0_1 h_S_) main_v2 main_c
  let main_v4 : FVec F S400x256 .f32 := Host.absf main_arg2
  let main_cst_0 : FVec F S_ .f32 := constant S_ .f32 0x7F800000#32
  let main_v5 : FVec F S400x256 .f32 := broadcastInDim S400x256 ![] bcast_S_S400x256 main_cst_0
  let main_v6 : IVec S400x256 1 := cmpf .olt main_v4 main_v5
  let main_c_1 : IVec S_ 1 := constantI S_ 1 1#1
  let main_v7 : IVec S_ 1 := (fun x v => Host.reduce IntOp.andi x v reducesTo_S400x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S51200x400 : Shape := ⟨2, ![51200, 400]⟩
abbrev S2x819200 : Shape := ⟨2, ![2, 819200]⟩
abbrev S400x256 : Shape := ⟨2, ![400, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x819200 : Shape := ⟨2, ![1, 819200]⟩
abbrev S819200 : Shape := ⟨1, ![819200]⟩
abbrev S_ : Shape := ⟨0, ![]⟩
abbrev S51200 : Shape := ⟨1, ![51200]⟩
abbrev S819200x1 : Shape := ⟨2, ![819200, 1]⟩
abbrev S51200x1 : Shape := ⟨2, ![51200, 1]⟩
abbrev S51200x256 : Shape := ⟨2, ![51200, 256]⟩
abbrev S2048x400 : Shape := ⟨2, ![2048, 400]⟩
abbrev S2048x256 : Shape := ⟨2, ![2048, 256]⟩
abbrev S819200x256 : Shape := ⟨2, ![819200, 256]⟩
abbrev S1x256 : Shape := ⟨2, ![1, 256]⟩
abbrev S2048x1 : Shape := ⟨2, ![2048, 1]⟩
abbrev S51200x2 : Shape := ⟨2, ![51200, 2]⟩
abbrev S2048x2 : Shape := ⟨2, ![2048, 2]⟩
abbrev S819200x2 : Shape := ⟨2, ![819200, 2]⟩
abbrev S1x2 : Shape := ⟨2, ![1, 2]⟩
abbrev S128x400x2 : Shape := ⟨3, ![128, 400, 2]⟩
abbrev S128x2 : Shape := ⟨2, ![128, 2]⟩

abbrev nBuf : Space → Nat
  | .hbm => 106
  | .vmem => 42
  | .smem => 0
  | _ => 0

abbrev bufTy : (tb : Table) → Fin (tcTables nBuf tb) → BufTy
  | .hbm, ⟨0, _⟩ => ⟨S51200x400, .f32⟩
  | .hbm, ⟨1, _⟩ => ⟨S2x819200, .i32⟩
  | .hbm, ⟨2, _⟩ => ⟨S400x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x2, .f32⟩
  | .hbm, ⟨7, _⟩ => ⟨S2, .f32⟩
  | .hbm, ⟨8, _⟩ => ⟨S1x819200, .i32⟩
  | .hbm, ⟨9, _⟩ => ⟨S819200, .i32⟩
  | .hbm, ⟨10, _⟩ => ⟨S1x819200, .i32⟩
  | .hbm, ⟨11, _⟩ => ⟨S819200, .i32⟩
  | .hbm, ⟨12, _⟩ => ⟨S_, .f32⟩
  | .hbm, ⟨13, _⟩ => ⟨S819200, .f32⟩
  | .hbm, ⟨14, _⟩ => ⟨S_, .f32⟩
  | .hbm, ⟨15, _⟩ => ⟨S51200, .f32⟩
  | .hbm, ⟨16, _⟩ => ⟨S819200x1, .i32⟩
  | .hbm, ⟨17, _⟩ => ⟨S51200, .f32⟩
  | .hbm, ⟨18, _⟩ => ⟨S_, .f32⟩
  | .hbm, ⟨19, _⟩ => ⟨S51200, .f32⟩
  | .hbm, ⟨20, _⟩ => ⟨S51200, .f32⟩
  | .hbm, ⟨21, _⟩ => ⟨S51200, .f32⟩
  | .hbm, ⟨22, _⟩ => ⟨S_, .i32⟩
  | .hbm, ⟨23, _⟩ => ⟨S819200, .i32⟩
  | .hbm, ⟨24, _⟩ => ⟨S819200, .i1⟩
  | .hbm, ⟨25, _⟩ => ⟨S_, .i32⟩
  | .hbm, ⟨26, _⟩ => ⟨S819200, .i32⟩
  | .hbm, ⟨27, _⟩ => ⟨S819200, .i32⟩
  | .hbm, ⟨28, _⟩ => ⟨S819200, .i32⟩
  | .hbm, ⟨29, _⟩ => ⟨S819200x1, .i32⟩
  | .hbm, ⟨30, _⟩ => ⟨S819200, .f32⟩
  | .hbm, ⟨31, _⟩ => ⟨S_, .i32⟩
  | .hbm, ⟨32, _⟩ => ⟨S819200, .i32⟩
  | .hbm, ⟨33, _⟩ => ⟨S819200, .i1⟩
  | .hbm, ⟨34, _⟩ => ⟨S_, .i32⟩
  | .hbm, ⟨35, _⟩ => ⟨S819200, .i32⟩
  | .hbm, ⟨36, _⟩ => ⟨S819200, .i32⟩
  | .hbm, ⟨37, _⟩ => ⟨S819200, .i32⟩
  | .hbm, ⟨38, _⟩ => ⟨S819200x1, .i32⟩
  | .hbm, ⟨39, _⟩ => ⟨S819200, .f32⟩
  | .hbm, ⟨40, _⟩ => ⟨S819200, .f32⟩
  | .hbm, ⟨41, _⟩ => ⟨S51200, .f32⟩
  | .hbm, ⟨42, _⟩ => ⟨S51200x1, .f32⟩
  | .hbm, ⟨43, _⟩ => ⟨S51200x256, .f32⟩
  | .hbm, ⟨44, _⟩ => ⟨S_, .i32⟩
  | .hbm, ⟨45, _⟩ => ⟨S819200, .i32⟩
  | .hbm, ⟨46, _⟩ => ⟨S819200, .i1⟩
  | .hbm, ⟨47, _⟩ => ⟨S_, .i32⟩
  | .hbm, ⟨48, _⟩ => ⟨S819200, .i32⟩
  | .hbm, ⟨49, _⟩ => ⟨S819200, .i32⟩
  | .hbm, ⟨50, _⟩ => ⟨S819200, .i32⟩
  | .hbm, ⟨51, _⟩ => ⟨S819200x1, .i32⟩
  | .hbm, ⟨52, _⟩ => ⟨S819200x256, .f32⟩
  | .hbm, ⟨53, _⟩ => ⟨S819200x1, .f32⟩
  | .hbm, ⟨54, _⟩ => ⟨S819200x256, .f32⟩
  | .hbm, ⟨55, _⟩ => ⟨S819200x256, .f32⟩
  | .hbm, ⟨56, _⟩ => ⟨S_, .f32⟩
  | .hbm, ⟨57, _⟩ => ⟨S51200x256, .f32⟩
  | .hbm, ⟨58, _⟩ => ⟨S819200x1, .i32⟩
  | .hbm, ⟨59, _⟩ => ⟨S51200x256, .f32⟩
  | .hbm, ⟨60, _⟩ => ⟨S1x256, .f32⟩
  | .hbm, ⟨61, _⟩ => ⟨S51200x256, .f32⟩
  | .hbm, ⟨62, _⟩ => ⟨S51200x256, .f32⟩
  | .hbm, ⟨63, _⟩ => ⟨S_, .i32⟩
  | .hbm, ⟨64, _⟩ => ⟨S819200, .i32⟩
  | .hbm, ⟨65, _⟩ => ⟨S819200, .i1⟩
  | .hbm, ⟨66, _⟩ => ⟨S_, .i32⟩
  | .hbm, ⟨67, _⟩ => ⟨S819200, .i32⟩
  | .hbm, ⟨68, _⟩ => ⟨S819200, .i32⟩
  | .hbm, ⟨69, _⟩ => ⟨S819200, .i32⟩
  | .hbm, ⟨70, _⟩ => ⟨S819200x1, .i32⟩
  | .hbm, ⟨71, _⟩ => ⟨S819200x256, .f32⟩
  | .hbm, ⟨72, _⟩ => ⟨S819200x1, .f32⟩
  | .hbm, ⟨73, _⟩ => ⟨S819200x256, .f32⟩
  | .hbm, ⟨74, _⟩ => ⟨S819200x256, .f32⟩
  | .hbm, ⟨75, _⟩ => ⟨S_, .f32⟩
  | .hbm, ⟨76, _⟩ => ⟨S51200x256, .f32⟩
  | .hbm, ⟨77, _⟩ => ⟨S819200x1, .i32⟩
  | .hbm, ⟨78, _⟩ => ⟨S51200x256, .f32⟩
  | .hbm, ⟨79, _⟩ => ⟨S1x256, .f32⟩
  | .hbm, ⟨80, _⟩ => ⟨S51200x256, .f32⟩
  | .hbm, ⟨81, _⟩ => ⟨S51200x2, .f32⟩
  | .hbm, ⟨82, _⟩ => ⟨S_, .i32⟩
  | .hbm, ⟨83, _⟩ => ⟨S819200, .i32⟩
  | .hbm, ⟨84, _⟩ => ⟨S819200, .i1⟩
  | .hbm, ⟨85, _⟩ => ⟨S_, .i32⟩
  | .hbm, ⟨86, _⟩ => ⟨S819200, .i32⟩
  | .hbm, ⟨87, _⟩ => ⟨S819200, .i32⟩
  | .hbm, ⟨88, _⟩ => ⟨S819200, .i32⟩
  | .hbm, ⟨89, _⟩ => ⟨S819200x1, .i32⟩
  | .hbm, ⟨90, _⟩ => ⟨S819200x2, .f32⟩
  | .hbm, ⟨91, _⟩ => ⟨S819200x1, .f32⟩
  | .hbm, ⟨92, _⟩ => ⟨S819200x2, .f32⟩
  | .hbm, ⟨93, _⟩ => ⟨S819200x2, .f32⟩
  | .hbm, ⟨94, _⟩ => ⟨S_, .f32⟩
  | .hbm, ⟨95, _⟩ => ⟨S51200x2, .f32⟩
  | .hbm, ⟨96, _⟩ => ⟨S819200x1, .i32⟩
  | .hbm, ⟨97, _⟩ => ⟨S51200x2, .f32⟩
  | .hbm, ⟨98, _⟩ => ⟨S1x2, .f32⟩
  | .hbm, ⟨99, _⟩ => ⟨S51200x2, .f32⟩
  | .hbm, ⟨100, _⟩ => ⟨S128x400x2, .f32⟩
  | .hbm, ⟨101, _⟩ => ⟨S_, .f32⟩
  | .hbm, ⟨102, _⟩ => ⟨S128x2, .f32⟩
  | .hbm, ⟨103, _⟩ => ⟨S_, .f32⟩
  | .hbm, ⟨104, _⟩ => ⟨S128x2, .f32⟩
  | .hbm, ⟨105, _⟩ => ⟨S128x2, .f32⟩
  | .local _ .vmem, ⟨0, _⟩ => ⟨S2048x400, .f32⟩
  | .local _ .vmem, ⟨1, _⟩ => ⟨S2048x400, .f32⟩
  | .local _ .vmem, ⟨2, _⟩ => ⟨S400x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x1, .f32⟩
  | .local _ .vmem, ⟨10, _⟩ => ⟨S2048x1, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S256x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2048x256, .f32⟩
  | .local _ .vmem, ⟨23, _⟩ => ⟨S2048x1, .f32⟩
  | .local _ .vmem, ⟨24, _⟩ => ⟨S2048x1, .f32⟩
  | .local _ .vmem, ⟨25, _⟩ => ⟨S1x256, .f32⟩
  | .local _ .vmem, ⟨26, _⟩ => ⟨S2048x256, .f32⟩
  | .local _ .vmem, ⟨27, _⟩ => ⟨S2048x256, .f32⟩
  | .local _ .vmem, ⟨28, _⟩ => ⟨S2048x256, .f32⟩
  | .local _ .vmem, ⟨29, _⟩ => ⟨S2048x256, .f32⟩
  | .local _ .vmem, ⟨30, _⟩ => ⟨S256x2, .f32⟩
  | .local _ .vmem, ⟨31, _⟩ => ⟨S2048x2, .f32⟩
  | .local _ .vmem, ⟨32, _⟩ => ⟨S2048x2, .f32⟩
  | .local _ .vmem, ⟨33, _⟩ => ⟨S2048x2, .f32⟩
  | .local _ .vmem, ⟨34, _⟩ => ⟨S2048x2, .f32⟩
  | .local _ .vmem, ⟨35, _⟩ => ⟨S2048x2, .f32⟩
  | .local _ .vmem, ⟨36, _⟩ => ⟨S2048x2, .f32⟩
  | .local _ .vmem, ⟨37, _⟩ => ⟨S2048x1, .f32⟩
  | .local _ .vmem, ⟨38, _⟩ => ⟨S2048x1, .f32⟩
  | .local _ .vmem, ⟨39, _⟩ => ⟨S1x2, .f32⟩
  | .local _ .vmem, ⟨40, _⟩ => ⟨S2048x2, .f32⟩
  | .local _ .vmem, ⟨41, _⟩ => ⟨S2048x2, .f32⟩
  | _, _ => ⟨S51200x400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_14 : Ref sig .tc := ⟨.hbm, 101, rfl⟩
abbrev main_v77 : Ref sig .tc := ⟨.hbm, 102, rfl⟩
abbrev main_cst_15 : Ref sig .tc := ⟨.hbm, 103, rfl⟩
abbrev main_v78 : Ref sig .tc := ⟨.hbm, 104, rfl⟩
abbrev main_v79 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S400x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2048x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2048x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x2 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2048x2 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x819200_S1x819200_0_0 : S2x819200.Slices ![0, 0] S1x819200
  shapeCasts_S1x819200_S819200 : S1x819200.ShapeCasts S819200
  slices_S2x819200_S1x819200_1_0 : S2x819200.Slices ![1, 0] S1x819200
  bcast_S_S819200 : S_.BroadcastsInDim S819200 (![] : Fin 0 → Fin S819200.rank)
  bcast_S_S51200 : S_.BroadcastsInDim S51200 (![] : Fin 0 → Fin S51200.rank)
  bcast_S819200_S819200x1_0 : S819200.BroadcastsInDim S819200x1 (![0] : Fin 1 → Fin S819200x1.rank)
  shapeCasts_S51200_S51200x1 : S51200.ShapeCasts S51200x1
  inb_S2048x400_S2048x400_0_0 : ∀ a, (![0, 0] : Fin 2 → Nat) a + S2048x400.size a ≤ S2048x400.size a
  h_S2048x400 : 0 < S2048x400.numel
  bitsLt_bf16_f32 : FTy.bits .bf16 < FTy.bits .f32
  inb_S400x256_S400x256_0_0 : ∀ a, (![0, 0] : Fin 2 → Nat) a + S400x256.size a ≤ S400x256.size a
  h_S400x256 : 0 < S400x256.numel
  inb_S2048x256_S2048x256_0_0 : ∀ a, (![0, 0] : Fin 2 → Nat) a + S2048x256.size a ≤ S2048x256.size a
  h_S2048x256 : 0 < S2048x256.numel
  bcast_S819200x1_S819200x256_0_1 : S819200x1.BroadcastsInDim S819200x256 (![0, 1] : Fin 2 → Fin S819200x256.rank)
  bcast_S_S51200x256 : S_.BroadcastsInDim S51200x256 (![] : Fin 0 → Fin S51200x256.rank)
  shapeCasts_S256_S1x256 : S256.ShapeCasts S1x256
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  inb_S256x2_S256x2_0_0 : ∀ a, (![0, 0] : Fin 2 → Nat) a + S256x2.size a ≤ S256x2.size a
  h_S256x2 : 0 < S256x2.numel
  inb_S2048x2_S2048x2_0_0 : ∀ a, (![0, 0] : Fin 2 → Nat) a + S2048x2.size a ≤ S2048x2.size a
  h_S2048x2 : 0 < S2048x2.numel
  bcast_S819200x1_S819200x2_0_1 : S819200x1.BroadcastsInDim S819200x2 (![0, 1] : Fin 2 → Fin S819200x2.rank)
  bcast_S_S51200x2 : S_.BroadcastsInDim S51200x2 (![] : Fin 0 → Fin S51200x2.rank)
  shapeCasts_S2_S1x2 : S2.ShapeCasts S1x2
  shapeCasts_S2048x2_S2048x2 : S2048x2.ShapeCasts S2048x2
  broadcasts_S2048x1_S2048x2 : S2048x1.Broadcasts S2048x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  shapeCasts_S51200x2_S128x400x2 : S51200x2.ShapeCasts S128x400x2
  reducesTo_S128x400x2_S128x2_d1 : S128x400x2.ReducesTo [1] S128x2
  h_S_ : 0 < S_.numel
  bcast_S_S128x2 : S_.BroadcastsInDim S128x2 (![] : Fin 0 → Fin S128x2.rank)
  scatter_S51200_S819200x1_S819200_n_0_0_1_wf : ScatterDims.WF S51200 S819200x1 S819200 [] [0] [0] 1
  gather_S51200_S819200x1_S819200_n_0_n_n_0_1_1_wf : GatherDims.WF S51200 S819200x1 S819200 [] [0] [] [0] [] 1 ![1]
  dot_S2048x400_S400x256_S2048x256_1_0_0_1_n_n_wf : DotDims.WF S2048x400 S400x256 S2048x256 [1] [0] [0] [1] [] []
  gather_S51200x256_S819200x1_S819200x256_1_0_n_n_0_1_1256_wf : GatherDims.WF S51200x256 S819200x1 S819200x256 [1] [0] [] [0] [] 1 ![1, 256]
  scatter_S51200x256_S819200x1_S819200x256_1_0_0_1_wf : ScatterDims.WF S51200x256 S819200x1 S819200x256 [1] [0] [0] 1
  dot_S2048x256_S256x256_S2048x256_1_0_0_1_n_n_wf : DotDims.WF S2048x256 S256x256 S2048x256 [1] [0] [0] [1] [] []
  dot_S2048x256_S256x2_S2048x2_1_0_0_1_n_n_wf : DotDims.WF S2048x256 S256x2 S2048x2 [1] [0] [0] [1] [] []
  gather_S51200x2_S819200x1_S819200x2_1_0_n_n_0_1_12_wf : GatherDims.WF S51200x2 S819200x1 S819200x2 [1] [0] [] [0] [] 1 ![1, 2]
  scatter_S51200x2_S819200x1_S819200x2_1_0_0_1_wf : ScatterDims.WF S51200x2 S819200x1 S819200x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x400.size a ≤ S51200x400.size a
  hwx0_0 : ∀ i : grid0.Coords, EltTy.bits .f32 = 32 ∨ (Rect.block (s := S51200x400) S2048x400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S400x256.size a ≤ S400x256.size a
  hwx0_1 : ∀ i : grid0.Coords, EltTy.bits .f32 = 32 ∨ (Rect.block (s := S400x256) S400x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S51200x256.size a
  hwx0_2 : ∀ i : grid0.Coords, EltTy.bits .f32 = 32 ∨ (Rect.block (s := S51200x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S51200x256.size a
  hwx1_0 : ∀ i : grid1.Coords, EltTy.bits .f32 = 32 ∨ (Rect.block (s := S51200x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S51200x256.size a
  hwx1_1 : ∀ i : grid1.Coords, EltTy.bits .f32 = 32 ∨ (Rect.block (s := S51200x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S51200x1.size a
  hwx1_2 : ∀ i : grid1.Coords, EltTy.bits .f32 = 32 ∨ (Rect.block (s := S51200x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S51200x256.size a
  hwx1_4 : ∀ i : grid1.Coords, EltTy.bits .f32 = 32 ∨ (Rect.block (s := S51200x256) S2048x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S51200x256.size a
  hwx2_0 : ∀ i : grid2.Coords, EltTy.bits .f32 = 32 ∨ (Rect.block (s := S51200x256) S2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S51200x256.size a
  hwx2_2 : ∀ i : grid2.Coords, EltTy.bits .f32 = 32 ∨ (Rect.block (s := S51200x256) S2048x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S51200x256.size a
  hwx3_0 : ∀ i : grid3.Coords, EltTy.bits .f32 = 32 ∨ (Rect.block (s := S51200x256) S2048x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S51200x256.size a
  hwx3_1 : ∀ i : grid3.Coords, EltTy.bits .f32 = 32 ∨ (Rect.block (s := S51200x256) S2048x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S51200x1.size a
  hwx3_2 : ∀ i : grid3.Coords, EltTy.bits .f32 = 32 ∨ (Rect.block (s := S51200x1) S2048x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x256.size a ≤ S51200x256.size a
  hwx3_4 : ∀ i : grid3.Coords, EltTy.bits .f32 = 32 ∨ (Rect.block (s := S51200x256) S2048x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S51200x256.size a
  hwx4_0 : ∀ i : grid4.Coords, EltTy.bits .f32 = 32 ∨ (Rect.block (s := S51200x256) S2048x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x2.size a ≤ S256x2.size a
  hwx4_1 : ∀ i : grid4.Coords, EltTy.bits .f32 = 32 ∨ (Rect.block (s := S256x2) S256x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x2.size a ≤ S51200x2.size a
  hwx4_2 : ∀ i : grid4.Coords, EltTy.bits .f32 = 32 ∨ (Rect.block (s := S51200x2) S2048x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x2.size a ≤ S51200x2.size a
  hwx5_0 : ∀ i : grid5.Coords, EltTy.bits .f32 = 32 ∨ (Rect.block (s := S51200x2) S2048x2.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x2.size a ≤ S51200x2.size a
  hwx5_1 : ∀ i : grid5.Coords, EltTy.bits .f32 = 32 ∨ (Rect.block (s := S51200x2) S2048x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x1.size a ≤ S51200x1.size a
  hwx5_2 : ∀ i : grid5.Coords, EltTy.bits .f32 = 32 ∨ (Rect.block (s := S51200x1) S2048x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x2.size a ≤ S1x2.size a
  hwx5_3 : ∀ i : grid5.Coords, EltTy.bits .f32 = 32 ∨ (Rect.block (s := S1x2) S1x2.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2048x2.size a ≤ S51200x2.size a
  hwx5_4 : ∀ i : grid5.Coords, EltTy.bits .f32 = 32 ∨ (Rect.block (s := S51200x2) S2048x2.size (cc5_transform_4 i) (hinb5_4 i)).WholeWords (EltTy.packing .f32)

variable [Facts₀]

def scatter_S51200_S819200x1_S819200_n_0_0_1 : ScatterDims S51200 S819200x1 S819200 where
  updateWindowDims := []
  insertedWindowDims := [0]
  scatterDimsToOperandDims := [0]
  indexVectorDim := 1
  wf := scatter_S51200_S819200x1_S819200_n_0_0_1_wf
def gather_S51200_S819200x1_S819200_n_0_n_n_0_1_1 : GatherDims S51200 S819200x1 S819200 where
  offsetDims := []
  collapsedSliceDims := [0]
  operandBatchingDims := []
  startIndicesBatchingDims := []
  startIndexMap := [0]
  indexVectorDim := 1
  sliceSizes := ![1]
  wf := gather_S51200_S819200x1_S819200_n_0_n_n_0_1_1_wf
def dot_S2048x400_S400x256_S2048x256_1_0_0_1_n_n : DotDims S2048x400 S400x256 S2048x256 where
  lhsContracting := [1]
  rhsContracting := [0]
  lhsNonContracting := [0]
  rhsNonContracting := [1]
  lhsBatch := []
  rhsBatch := []
  wf := dot_S2048x400_S400x256_S2048x256_1_0_0_1_n_n_wf
def gather_S51200x256_S819200x1_S819200x256_1_0_n_n_0_1_1256 : GatherDims S51200x256 S819200x1 S819200x256 where
  offsetDims := [1]
  collapsedSliceDims := [0]
  operandBatchingDims := []
  startIndicesBatchingDims := []
  startIndexMap := [0]
  indexVectorDim := 1
  sliceSizes := ![1, 256]
  wf := gather_S51200x256_S819200x1_S819200x256_1_0_n_n_0_1_1256_wf
def scatter_S51200x256_S819200x1_S819200x256_1_0_0_1 : ScatterDims S51200x256 S819200x1 S819200x256 where
  updateWindowDims := [1]
  insertedWindowDims := [0]
  scatterDimsToOperandDims := [0]
  indexVectorDim := 1
  wf := scatter_S51200x256_S819200x1_S819200x256_1_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x2_S2048x2_1_0_0_1_n_n : DotDims S2048x256 S256x2 S2048x2 where
  lhsContracting := [1]
  rhsContracting := [0]
  lhsNonContracting := [0]
  rhsNonContracting := [1]
  lhsBatch := []
  rhsBatch := []
  wf := dot_S2048x256_S256x2_S2048x2_1_0_0_1_n_n_wf
def gather_S51200x2_S819200x1_S819200x2_1_0_n_n_0_1_12 : GatherDims S51200x2 S819200x1 S819200x2 where
  offsetDims := [1]
  collapsedSliceDims := [0]
  operandBatchingDims := []
  startIndicesBatchingDims := []
  startIndexMap := [0]
  indexVectorDim := 1
  sliceSizes := ![1, 2]
  wf := gather_S51200x2_S819200x1_S819200x2_1_0_n_n_0_1_12_wf
def scatter_S51200x2_S819200x1_S819200x2_1_0_0_1 : ScatterDims S51200x2 S819200x1 S819200x2 where
  updateWindowDims := [1]
  insertedWindowDims := [0]
  scatterDimsToOperandDims := [0]
  indexVectorDim := 1
  wf := scatter_S51200x2_S819200x1_S819200x2_1_0_0_1_wf

abbrev win0_0 : Pipeline.Window sig grid0 :=
  Pipeline.Window.ofSpec (Memref.whole main_arg0) S2048x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S400x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2048x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2048x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S2048x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S256x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S2048x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S2048x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S2048x2.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S2048x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S2048x2.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S51200x400 : Shape := ⟨2, ![51200, 400]⟩
abbrev S2x819200 : Shape := ⟨2, ![2, 819200]⟩
abbrev S400x256 : Shape := ⟨2, ![400, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x819200 : Shape := ⟨2, ![1, 819200]⟩
abbrev S819200 : Shape := ⟨1, ![819200]⟩
abbrev S_ : Shape := ⟨0, ![]⟩
abbrev S51200 : Shape := ⟨1, ![51200]⟩
abbrev S819200x1 : Shape := ⟨2, ![819200, 1]⟩
abbrev S51200x256 : Shape := ⟨2, ![51200, 256]⟩
abbrev S819200x256 : Shape := ⟨2, ![819200, 256]⟩
abbrev S51200x1 : Shape := ⟨2, ![51200, 1]⟩
abbrev S1x256 : Shape := ⟨2, ![1, 256]⟩
abbrev S51200x2 : Shape := ⟨2, ![51200, 2]⟩
abbrev S819200x2 : Shape := ⟨2, ![819200, 2]⟩
abbrev S1x2 : Shape := ⟨2, ![1, 2]⟩
abbrev S128x400x2 : Shape := ⟨3, ![128, 400, 2]⟩
abbrev S128x2 : Shape := ⟨2, ![128, 2]⟩

abbrev nBuf : Space → Nat
  | .hbm => 166
  | .vmem => 0
  | .smem => 0
  | _ => 0

abbrev hbmTy0_0 (i : Nat) : BufTy := match i % 128 with
  | 0 => ⟨S51200x400, .f32⟩
  | 1 => ⟨S2x819200, .i32⟩
  | 2 => ⟨S400x256, .f32⟩
  | 3 => ⟨S256, .f32⟩
  | 4 => ⟨S256x256, .f32⟩
  | 5 => ⟨S256, .f32⟩
  | 6 => ⟨S256x2, .f32⟩
  | 7 => ⟨S2, .f32⟩
  | 8 => ⟨S1x819200, .i32⟩
  | 9 => ⟨S819200, .i32⟩
  | 10 => ⟨S1x819200, .i32⟩
  | 11 => ⟨S819200, .i32⟩
  | 12 => ⟨S_, .f32⟩
  | 13 => ⟨S819200, .f32⟩
  | 14 => ⟨S_, .f32⟩
  | 15 => ⟨S51200, .f32⟩
  | 16 => ⟨S819200x1, .i32⟩
  | 17 => ⟨S51200, .f32⟩
  | 18 => ⟨S_, .f32⟩
  | 19 => ⟨S51200, .f32⟩
  | 20 => ⟨S51200, .f32⟩
  | 21 => ⟨S51200, .f32⟩
  | 22 => ⟨S51200x256, .f32⟩
  | 23 => ⟨S_, .i32⟩
  | 24 => ⟨S819200, .i32⟩
  | 25 => ⟨S819200, .i1⟩
  | 26 => ⟨S_, .i32⟩
  | 27 => ⟨S819200, .i32⟩
  | 28 => ⟨S819200, .i32⟩
  | 29 => ⟨S819200, .i32⟩
  | 30 => ⟨S819200x1, .i32⟩
  | 31 => ⟨S819200, .f32⟩
  | 32 => ⟨S_, .i32⟩
  | 33 => ⟨S819200, .i32⟩
  | 34 => ⟨S819200, .i1⟩
  | 35 => ⟨S_, .i32⟩
  | 36 => ⟨S819200, .i32⟩
  | 37 => ⟨S819200, .i32⟩
  | 38 => ⟨S819200, .i32⟩
  | 39 => ⟨S819200x1, .i32⟩
  | 40 => ⟨S819200, .f32⟩
  | 41 => ⟨S819200, .f32⟩
  | 42 => ⟨S_, .i32⟩
  | 43 => ⟨S819200, .i32⟩
  | 44 => ⟨S819200, .i1⟩
  | 45 => ⟨S_, .i32⟩
  | 46 => ⟨S819200, .i32⟩
  | 47 => ⟨S819200, .i32⟩
  | 48 => ⟨S819200, .i32⟩
  | 49 => ⟨S819200x1, .i32⟩
  | 50 => ⟨S819200x256, .f32⟩
  | 51 => ⟨S819200x1, .f32⟩
  | 52 => ⟨S819200x256, .f32⟩
  | 53 => ⟨S819200x256, .f32⟩
  | 54 => ⟨S_, .f32⟩
  | 55 => ⟨S51200x256, .f32⟩
  | 56 => ⟨S819200x1, .i32⟩
  | 57 => ⟨S51200x256, .f32⟩
  | 58 => ⟨S51200, .f32⟩
  | 59 => ⟨S51200x1, .f32⟩
  | 60 => ⟨S51200x256, .f32⟩
  | 61 => ⟨S51200x256, .f32⟩
  | 62 => ⟨S51200x256, .f32⟩
  | 63 => ⟨S1x256, .f32⟩
  | 64 => ⟨S51200x256, .f32⟩
  | 65 => ⟨S51200x256, .f32⟩
  | 66 => ⟨S_, .f32⟩
  | 67 => ⟨S51200x256, .f32⟩
  | 68 => ⟨S51200x256, .f32⟩
  | 69 => ⟨S51200x256, .f32⟩
  | 70 => ⟨S_, .i32⟩
  | 71 => ⟨S819200, .i32⟩
  | 72 => ⟨S819200, .i1⟩
  | 73 => ⟨S_, .i32⟩
  | 74 => ⟨S819200, .i32⟩
  | 75 => ⟨S819200, .i32⟩
  | 76 => ⟨S819200, .i32⟩
  | 77 => ⟨S819200x1, .i32⟩
  | 78 => ⟨S819200, .f32⟩
  | 79 => ⟨S_, .i32⟩
  | 80 => ⟨S819200, .i32⟩
  | 81 => ⟨S819200, .i1⟩
  | 82 => ⟨S_, .i32⟩
  | 83 => ⟨S819200, .i32⟩
  | 84 => ⟨S819200, .i32⟩
  | 85 => ⟨S819200, .i32⟩
  | 86 => ⟨S819200x1, .i32⟩
  | 87 => ⟨S819200, .f32⟩
  | 88 => ⟨S819200, .f32⟩
  | 89 => ⟨S_, .i32⟩
  | 90 => ⟨S819200, .i32⟩
  | 91 => ⟨S819200, .i1⟩
  | 92 => ⟨S_, .i32⟩
  | 93 => ⟨S819200, .i32⟩
  | 94 => ⟨S819200, .i32⟩
  | 95 => ⟨S819200, .i32⟩
  | 96 => ⟨S819200x1, .i32⟩
  | 97 => ⟨S819200x256, .f32⟩
  | 98 => ⟨S819200x1, .f32⟩
  | 99 => ⟨S819200x256, .f32⟩
  | 100 => ⟨S819200x256, .f32⟩
  | 101 => ⟨S_, .f32⟩
  | 102 => ⟨S51200x256, .f32⟩
  | 103 => ⟨S819200x1, .i32⟩
  | 104 => ⟨S51200x256, .f32⟩
  | 105 => ⟨S51200, .f32⟩
  | 106 => ⟨S51200x1, .f32⟩
  | 107 => ⟨S51200x256, .f32⟩
  | 108 => ⟨S51200x256, .f32⟩
  | 109 => ⟨S51200x256, .f32⟩
  | 110 => ⟨S1x256, .f32⟩
  | 111 => ⟨S51200x256, .f32⟩
  | 112 => ⟨S51200x256, .f32⟩
  | 113 => ⟨S_, .f32⟩
  | 114 => ⟨S51200x256, .f32⟩
  | 115 => ⟨S51200x256, .f32⟩
  | 116 => ⟨S51200x2, .f32⟩
  | 117 => ⟨S_, .i32⟩
  | 118 => ⟨S819200, .i32⟩
  | 119 => ⟨S819200, .i1⟩
  | 120 => ⟨S_, .i32⟩
  | 121 => ⟨S819200, .i32⟩
  | 122 => ⟨S819200, .i32⟩
  | 123 => ⟨S819200, .i32⟩
  | 124 => ⟨S819200x1, .i32⟩
  | 125 => ⟨S819200, .f32⟩
  | 126 => ⟨S_, .i32⟩
  | 127 => ⟨S819200, .i32⟩
  | _ => ⟨S51200x400, .f32⟩

abbrev hbmTy0_1 (i : Nat) : BufTy := match i % 128 with
  | 0 => ⟨S819200, .i1⟩
  | 1 => ⟨S_, .i32⟩
  | 2 => ⟨S819200, .i32⟩
  | 3 => ⟨S819200, .i32⟩
  | 4 => ⟨S819200, .i32⟩
  | 5 => ⟨S819200x1, .i32⟩
  | 6 => ⟨S819200, .f32⟩
  | 7 => ⟨S819200, .f32⟩
  | 8 => ⟨S_, .i32⟩
  | 9 => ⟨S819200, .i32⟩
  | 10 => ⟨S819200, .i1⟩
  | 11 => ⟨S_, .i32⟩
  | 12 => ⟨S819200, .i32⟩
  | 13 => ⟨S819200, .i32⟩
  | 14 => ⟨S819200, .i32⟩
  | 15 => ⟨S819200x1, .i32⟩
  | 16 => ⟨S819200x2, .f32⟩
  | 17 => ⟨S819200x1, .f32⟩
  | 18 => ⟨S819200x2, .f32⟩
  | 19 => ⟨S819200x2, .f32⟩
  | 20 => ⟨S_, .f32⟩
  | 21 => ⟨S51200x2, .f32⟩
  | 22 => ⟨S819200x1, .i32⟩
  | 23 => ⟨S51200x2, .f32⟩
  | 24 => ⟨S51200, .f32⟩
  | 25 => ⟨S51200x1, .f32⟩
  | 26 => ⟨S51200x2, .f32⟩
  | 27 => ⟨S51200x2, .f32⟩
  | 28 => ⟨S51200x2, .f32⟩
  | 29 => ⟨S1x2, .f32⟩
  | 30 => ⟨S51200x2, .f32⟩
  | 31 => ⟨S51200x2, .f32⟩
  | 32 => ⟨S128x400x2, .f32⟩
  | 33 => ⟨S_, .f32⟩
  | 34 => ⟨S128x2, .f32⟩
  | 35 => ⟨S_, .f32⟩
  | 36 => ⟨S128x2, .f32⟩
  | 37 => ⟨S128x2, .f32⟩
  | _ => ⟨S51200x400, .f32⟩

abbrev hbmTy (i : Nat) : BufTy := match i / 128 with
  | 0 => hbmTy0_0 i
  | 1 => hbmTy0_1 i
  | _ => ⟨S51200x400, .f32⟩

abbrev bufTy : (tb : Table) → Fin (tcTables nBuf tb) → BufTy
  | .hbm, ⟨i, _⟩ => hbmTy i
  | _, _ => ⟨S51200x400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_cst : Ref sig .tc := ⟨.hbm, 113, rfl⟩
abbrev main_call1_v0 : Ref sig .tc := ⟨.hbm, 114, rfl⟩
abbrev main_v86 : Ref sig .tc := ⟨.hbm, 115, rfl⟩
abbrev main_v87 : Ref sig .tc := ⟨.hbm, 116, rfl⟩
abbrev main_c_15 : Ref sig .tc := ⟨.hbm, 117, rfl⟩
abbrev main_v88 : Ref sig .tc := ⟨.hbm, 118, rfl⟩
abbrev main_v89 : Ref sig .tc := ⟨.hbm, 119, rfl⟩
abbrev main_c_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_17 : Ref sig .tc := ⟨.hbm, 126, rfl⟩
abbrev main_v95 : Ref sig .tc := ⟨.hbm, 127, rfl⟩
abbrev main_v96 : Ref sig .tc := ⟨.hbm, 128, rfl⟩
abbrev main_c_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_19 : Ref sig .tc := ⟨.hbm, 136, rfl⟩
abbrev main_v103 : Ref sig .tc := ⟨.hbm, 137, rfl⟩
abbrev main_v104 : Ref sig .tc := ⟨.hbm, 138, rfl⟩
abbrev main_c_20 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_21 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_22 : Ref sig .tc := ⟨.hbm, 161, rfl⟩
abbrev main_v125 : Ref sig .tc := ⟨.hbm, 162, rfl⟩
abbrev main_cst_23 : Ref sig .tc := ⟨.hbm, 163, rfl⟩
abbrev main_v126 : Ref sig .tc := ⟨.hbm, 164, rfl⟩
abbrev main_v127 : Ref sig .tc := ⟨.hbm, 165, rfl⟩

abbrev nD : Nat := 1
abbrev τ : Topo := Topo.v7x

variable {F : FTy → Type} [FloatOps F]

class Facts₀ : Prop where
  slices_S2x819200_S1x819200_0_0 : S2x819200.Slices ![0, 0] S1x819200
  shapeCasts_S1x819200_S819200 : S1x819200.ShapeCasts S819200
  slices_S2x819200_S1x819200_1_0 : S2x819200.Slices ![1, 0] S1x819200
  bcast_S_S819200 : S_.BroadcastsInDim S819200 (![] : Fin 0 → Fin S819200.rank)
  bcast_S_S51200 : S_.BroadcastsInDim S51200 (![] : Fin 0 → Fin S51200.rank)
  bcast_S819200_S819200x1_0 : S819200.BroadcastsInDim S819200x1 (![0] : Fin 1 → Fin S819200x1.rank)
  bcast_S819200x1_S819200x256_0_1 : S819200x1.BroadcastsInDim S819200x256 (![0, 1] : Fin 2 → Fin S819200x256.rank)
  bcast_S_S51200x256 : S_.BroadcastsInDim S51200x256 (![] : Fin 0 → Fin S51200x256.rank)
  bcast_S51200_S51200x1_0 : S51200.BroadcastsInDim S51200x1 (![0] : Fin 1 → Fin S51200x1.rank)
  bcast_S51200x1_S51200x256_0_1 : S51200x1.BroadcastsInDim S51200x256 (![0, 1] : Fin 2 → Fin S51200x256.rank)
  bcast_S256_S1x256_1 : S256.BroadcastsInDim S1x256 (![1] : Fin 1 → Fin S1x256.rank)
  bcast_S1x256_S51200x256_0_1 : S1x256.BroadcastsInDim S51200x256 (![0, 1] : Fin 2 → Fin S51200x256.rank)
  bcast_S819200x1_S819200x2_0_1 : S819200x1.BroadcastsInDim S819200x2 (![0, 1] : Fin 2 → Fin S819200x2.rank)
  bcast_S_S51200x2 : S_.BroadcastsInDim S51200x2 (![] : Fin 0 → Fin S51200x2.rank)
  bcast_S51200x1_S51200x2_0_1 : S51200x1.BroadcastsInDim S51200x2 (![0, 1] : Fin 2 → Fin S51200x2.rank)
  bcast_S2_S1x2_1 : S2.BroadcastsInDim S1x2 (![1] : Fin 1 → Fin S1x2.rank)
  bcast_S1x2_S51200x2_0_1 : S1x2.BroadcastsInDim S51200x2 (![0, 1] : Fin 2 → Fin S51200x2.rank)
  shapeCasts_S51200x2_S128x400x2 : S51200x2.ShapeCasts S128x400x2
  reducesTo_S128x400x2_S128x2_d1 : S128x400x2.ReducesTo [1] S128x2
  h_S_ : 0 < S_.numel
  bcast_S_S128x2 : S_.BroadcastsInDim S128x2 (![] : Fin 0 → Fin S128x2.rank)
  scatter_S51200_S819200x1_S819200_n_0_0_1_wf : ScatterDims.WF S51200 S819200x1 S819200 [] [0] [0] 1
  dot_S51200x400_S400x256_S51200x256_1_0_0_1_n_n_wf : DotDims.WF S51200x400 S400x256 S51200x256 [1] [0] [0] [1] [] []
  gather_S51200_S819200x1_S819200_n_0_n_n_0_1_1_wf : GatherDims.WF S51200 S819200x1 S819200 [] [0] [] [0] [] 1 ![1]
  gather_S51200x256_S819200x1_S819200x256_1_0_n_n_0_1_1256_wf : GatherDims.WF S51200x256 S819200x1 S819200x256 [1] [0] [] [0] [] 1 ![1, 256]
  scatter_S51200x256_S819200x1_S819200x256_1_0_0_1_wf : ScatterDims.WF S51200x256 S819200x1 S819200x256 [1] [0] [0] 1
  dot_S51200x256_S256x256_S51200x256_1_0_0_1_n_n_wf : DotDims.WF S51200x256 S256x256 S51200x256 [1] [0] [0] [1] [] []
  dot_S51200x256_S256x2_S51200x2_1_0_0_1_n_n_wf : DotDims.WF S51200x256 S256x2 S51200x2 [1] [0] [0] [1] [] []
  gather_S51200x2_S819200x1_S819200x2_1_0_n_n_0_1_12_wf : GatherDims.WF S51200x2 S819200x1 S819200x2 [1] [0] [] [0] [] 1 ![1, 2]
  scatter_S51200x2_S819200x1_S819200x2_1_0_0_1_wf : ScatterDims.WF S51200x2 S819200x1 S819200x2 [1] [0] [0] 1

variable [Facts₀]

def scatter_S51200_S819200x1_S819200_n_0_0_1 : ScatterDims S51200 S819200x1 S819200 where
  updateWindowDims := []
  insertedWindowDims := [0]
  scatterDimsToOperandDims := [0]
  indexVectorDim := 1
  wf := scatter_S51200_S819200x1_S819200_n_0_0_1_wf
def dot_S51200x400_S400x256_S51200x256_1_0_0_1_n_n : DotDims S51200x400 S400x256 S51200x256 where
  lhsContracting := [1]
  rhsContracting := [0]
  lhsNonContracting := [0]
  rhsNonContracting := [1]
  lhsBatch := []
  rhsBatch := []
  wf := dot_S51200x400_S400x256_S51200x256_1_0_0_1_n_n_wf
def gather_S51200_S819200x1_S819200_n_0_n_n_0_1_1 : GatherDims S51200 S819200x1 S819200 where
  offsetDims := []
  collapsedSliceDims := [0]
  operandBatchingDims := []
  startIndicesBatchingDims := []
  startIndexMap := [0]
  indexVectorDim := 1
  sliceSizes := ![1]
  wf := gather_S51200_S819200x1_S819200_n_0_n_n_0_1_1_wf
def gather_S51200x256_S819200x1_S819200x256_1_0_n_n_0_1_1256 : GatherDims S51200x256 S819200x1 S819200x256 where
  offsetDims := [1]
  collapsedSliceDims := [0]
  operandBatchingDims := []
  startIndicesBatchingDims := []
  startIndexMap := [0]
  indexVectorDim := 1
  sliceSizes := ![1, 256]
  wf := gather_S51200x256_S819200x1_S819200x256_1_0_n_n_0_1_1256_wf
def scatter_S51200x256_S819200x1_S819200x256_1_0_0_1 : ScatterDims S51200x256 S819200x1 S819200x256 where
  updateWindowDims := [1]
  insertedWindowDims := [0]
  scatterDimsToOperandDims := [0]
  indexVectorDim := 1
  wf := scatter_S51200x256_S819200x1_S819200x256_1_0_0_1_wf
def dot_S51200x256_S256x256_S51200x256_1_0_0_1_n_n : DotDims S51200x256 S256x256 S51200x256 where
  lhsContracting := [1]
  rhsContracting := [0]
  lhsNonContracting := [0]
  rhsNonContracting := [1]
  lhsBatch := []
  rhsBatch := []
  wf := dot_S51200x256_S256x256_S51200x256_1_0_0_1_n_n_wf
def dot_S51200x256_S256x2_S51200x2_1_0_0_1_n_n : DotDims S51200x256 S256x2 S51200x2 where
  lhsContracting := [1]
  rhsContracting := [0]
  lhsNonContracting := [0]
  rhsNonContracting := [1]
  lhsBatch := []
  rhsBatch := []
  wf := dot_S51200x256_S256x2_S51200x2_1_0_0_1_n_n_wf
def gather_S51200x2_S819200x1_S819200x2_1_0_n_n_0_1_12 : GatherDims S51200x2 S819200x1 S819200x2 where
  offsetDims := [1]
  collapsedSliceDims := [0]
  operandBatchingDims := []
  startIndicesBatchingDims := []
  startIndexMap := [0]
  indexVectorDim := 1
  sliceSizes := ![1, 2]
  wf := gather_S51200x2_S819200x1_S819200x2_1_0_n_n_0_1_12_wf
def scatter_S51200x2_S819200x1_S819200x2_1_0_0_1 : ScatterDims S51200x2 S819200x1 S819200x2 where
  updateWindowDims := [1]
  insertedWindowDims := [0]
  scatterDimsToOperandDims := [0]
  indexVectorDim := 1
  wf := scatter_S51200x2_S819200x1_S819200x2_1_0_0_1_wf

class Facts : Prop extends Facts₀ where

variable [Facts]
-- ==== Proof.RunResult.lean ====
/-
  The kernel program's run with its result named.

  @main is eleven segments: five stretches of host operations and six kernel regions between them. The contents of
  every buffer at each segment boundary are a fold from the launch memory: a stretch applies its operations, a region
  replaces its result array by what its 25 write-backs leave and keeps every other buffer. Every weakly fair execution
  terminates, nothing faults, and at the end every unscoped buffer holds the last boundary's contents. Stated here for
  the result buffer and the eight arguments: the result ends at the last boundary's contents of its buffer, each argument
  as launched.
-/
import proofs.«157838_j3212635537778_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the contents of the last
    segment boundary, and the argument arrays end as launched. -/
theorem run_result : θ_run defs (onTc (τ := τ) (main (F := F))) ⟨m, fun _ => 0, ρ⟩ (fun r => ∀ c : Dev nD,
      r.2.mem ((c.tc : Thread nD τ).loc main_v79) = W11 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v79 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Hand

end
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.LibDotRowsByCols.lean ====
/-
  A host matrix product read at an entry.

  On the extended reals jnp's `dot_general` of an `[M, K]` left operand and a `[K, N]` right operand (the contraction on
  the left's second axis and the right's first, no batch axis) is at entry `(p, q)` the plain sum `∑ₖ l(p, k) · r(k, q)`:
  no rounding, no order of accumulation. The dimension record is kept abstract; what is asked of it is that it contracts
  one axis of extent `K` and reads its operands at `(p, k)` and `(k, q)`, four facts a concrete record gives by
  unfolding. (The host-side companion of the same statement for a `tpu.matmul` into a zero accumulator.) Imports only the
  library.
-/
import Idealize.ShloMosaic.PureOps.Ideal.Laws
import Idealize.ShloMosaic.Lib.ValueIdx

namespace Idealize.ShloMosaic.DotRowsByCols

open Idealize.ShloMosaic Idealize.ShloMosaic.ValueIdx

/-- `Host.dotGeneral D prec l r` at `(p, q)` is `∑ k, l (p, k) * r (k, q)`. -/
theorem dotGeneral_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  refine (Ideal.dotGeneral_apply D prec .single l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.DotRowsByCols
-- ==== Proof.LibMatrixProduct.lean ====
/-
  The product of two matrices of extended reals, as an array.

  For an `[M, K]` array `x` and a `[K, N]` array `w` of extended reals the product `x · w` is the `[M, N]` array whose
  entry `(p, q)` is `∑ₖ x(p, k) · w(k, q)`. On the extended reals, where no operation rounds and a sum has no order, two
  operations compute exactly this array: jnp's `dot_general` of the two operands (contraction on the left's second axis and
  the right's first, no batch axis), and a `tpu.matmul` with the same dimension numbers accumulated into the zero splat.
  The dimension record is kept abstract; what is asked of it is that it contracts one axis of extent `K` and reads its
  operands at `(p, k)` and `(k, q)`, facts a concrete record gives by unfolding.

  A row of the product reads only the same row of the left factor (`prod_row`): this is why a product computed block of
  rows by block of rows is the whole product.  Any extents.
-/
import Idealize.ShloMosaic.PureOps.Ideal.Laws
import Idealize.ShloMosaic.Lib.ValueIdx
import proofs.«157838_j3212635537778_1_alg».proof.Proof.LibMatmulRowsByCols
import proofs.«157838_j3212635537778_1_alg».proof.Proof.LibDotRowsByCols

namespace Idealize.ShloMosaic.MatrixProduct

open Idealize.ShloMosaic Idealize.ShloMosaic.ValueIdx

variable {M K N : ℕ} {φ₁ φ₂ : FTy}

/-- The product array: entry `i = (p, q)` is `∑ₖ x(p, k) · w(k, q)`. -/
noncomputable def prod (x : FVec Ideal ⟨2, ![M, K]⟩ φ₁) (w : FVec Ideal ⟨2, ![K, N]⟩ φ₂) : FVec Ideal ⟨2, ![M, N]⟩ .f32 :=
  fun i => ∑ k : Fin K, x (ix2 (i 0) k) * w (ix2 k (i 1))

/-- The product read at coordinates. -/
theorem prod_apply (x : FVec Ideal ⟨2, ![M, K]⟩ φ₁) (w : FVec Ideal ⟨2, ![K, N]⟩ φ₂) (p : Fin M) (q : Fin N) :
    prod x w (ix2 p q) = ∑ k : Fin K, x (ix2 p k) * w (ix2 k q) := rfl

/-- Row `p'` of `x' · w` is row `p` of `x · w` as soon as row `p'` of `x'` is row `p` of `x`: a row of the product reads
    one row of the left factor and all of the right one. -/
theorem prod_row {M' : ℕ} (x : FVec Ideal ⟨2, ![M, K]⟩ φ₁) (x' : FVec Ideal ⟨2, ![M', K]⟩ φ₁)
    (w : FVec Ideal ⟨2, ![K, N]⟩ φ₂) (p : Fin M) (p' : Fin M') (q : Fin N)
    (h : ∀ k : Fin K, x' (ix2 p' k) = x (ix2 p k)) : prod x' w (ix2 p' q) = prod x w (ix2 p q) := by
  rw [prod_apply, prod_apply]
  exact Finset.sum_congr rfl fun k _ => by rw [h k]

/-- jnp's `dot_general` of an `[M, K]` and a `[K, N]` operand is their product. -/
theorem dotGeneral_eq (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r := by
  funext i
  obtain ⟨p, q, rfl⟩ : ∃ (p : Fin M) (q : Fin N), i = ix2 p q := ⟨i 0, i 1, eq_ix2 i⟩
  exact DotRowsByCols.dotGeneral_apply D hr hs hl0 hl1 hr0 hr1 prec l r p q

/-- A `tpu.matmul` of an `[M, K]` and a `[K, N]` operand into the zero accumulator is their product. -/
theorem matmul_zero_eq (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r := by
  funext i
  obtain ⟨p, q, rfl⟩ : ∃ (p : Fin M) (q : Fin N), i = ix2 p q := ⟨i 0, i 1, eq_ix2 i⟩
  exact MatmulRowsByCols.matmul_zero_apply D hr hs hl0 hl1 hr0 hr1 prec l r p q

end Idealize.ShloMosaic.MatrixProduct
-- ==== Proof.LibColumnBroadcast.lean ====
/-
  Columns, read at an entry.

  An [a, 1] array broadcast to [a, b] reads, at (p, c), the column's entry at (p, 0): every entry of row p of the
  result is the one number the column holds for that row (the companion of the library's one-row form [1, b] → [a, b]).
  A vector [a] cast to a column [a, 1] reads, at (i, 0), the vector's entry at i (the companion of the library's row
  form [a] → [1, a]). Any extents and element type; imports only the library.
-/
import Idealize.ShloMosaic.Lib.Pipeline.Value
import Idealize.ShloMosaic.Lib.ValueIdx

namespace Idealize.ShloMosaic.ColumnBroadcast

open Idealize.ShloMosaic Idealize.ShloMosaic.ValueIdx

/-- An `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ColumnBroadcast
-- ==== Proof.LayerEntry.lean ====
/-
  One entry of a graph-convolution layer's output, and the layer's output as an array.

  After the edge messages have been added into their target rows (the aggregate a), a layer adds to entry (r, q) the
  node's own transformed feature h(r, q) scaled by the node's self-loop weight d(r) = 1 / deg(r), then the bias b(q):
      (a(r, q) + d(r) · h(r, q)) + b(q),
  and the first two layers cut the result off at zero. The sums are written in exactly this order, so the two programs
  compared here compute the same term and no law of arithmetic is needed: the definitions below only name that term.
  The self-loop weights come as a column [N, 1] and the bias as a row [1, K], which is how the kernel's blocks see them.
-/
import Idealize.ShloMosaic.PureOps.Ideal
import Idealize.ShloMosaic.Lib.ValueIdx

noncomputable section

namespace Cert.GraphConv

open Idealize.ShloMosaic Idealize.ShloMosaic.ValueIdx

variable {F : FTy → Type} [FloatOps F]

/-- One output entry before the cut-off: aggregate, plus self-loop weight times own feature, plus bias. -/
def cell (a d h b : F .f32) : F .f32 := FloatOps.addf (FloatOps.addf a (FloatOps.mulf d h)) b

/-- One output entry cut off at zero. -/
def cellRelu (a d h b : F .f32) : F .f32 := FloatOps.maximumf (cell a d h b) (FloatOps.ofBits .f32 0x00000000#32)

/-- The entry before the cut-off, spelt out. -/
theorem cell_def (a d h b : F .f32) : cell a d h b = FloatOps.addf (FloatOps.addf a (FloatOps.mulf d h)) b := rfl

/-- The entry cut off at zero, spelt out. -/
theorem cellRelu_def (a d h b : F .f32) :
    cellRelu a d h b = FloatOps.maximumf (FloatOps.addf (FloatOps.addf a (FloatOps.mulf d h)) b) (FloatOps.ofBits .f32 0x00000000#32) := rfl

/-- Equal ingredients give equal entries. -/
theorem cell_congr {a a' d d' h h' b b' : F .f32} (ha : a = a') (hd : d = d') (hh : h = h') (hb : b = b') :
    cell a d h b = cell a' d' h' b' := by subst ha hd hh hb; rfl

/-- Equal ingredients give equal entries, cut off at zero. -/
theorem cellRelu_congr {a a' d d' h h' b b' : F .f32} (ha : a = a') (hd : d = d') (hh : h = h') (hb : b = b') :
    cellRelu a d h b = cellRelu a' d' h' b' := by subst ha hd hh hb; rfl

/-- A layer's output array without the cut-off, from the aggregate, the column of self-loop weights, the transformed
    features and the row of biases. -/
def combine {N K : ℕ} (a : FVec F ⟨2, ![N, K]⟩ .f32) (d : FVec F ⟨2, ![N, 1]⟩ .f32) (h : FVec F ⟨2, ![N, K]⟩ .f32)
    (b : FVec F ⟨2, ![1, K]⟩ .f32) : FVec F ⟨2, ![N, K]⟩ .f32 :=
  fun i => cell (a i) (d (ix2 (i 0) (0 : Fin 1))) (h i) (b (ix2 (0 : Fin 1) (i 1)))

/-- A layer's output array cut off at zero. -/
def combineRelu {N K : ℕ} (a : FVec F ⟨2, ![N, K]⟩ .f32) (d : FVec F ⟨2, ![N, 1]⟩ .f32) (h : FVec F ⟨2, ![N, K]⟩ .f32)
    (b : FVec F ⟨2, ![1, K]⟩ .f32) : FVec F ⟨2, ![N, K]⟩ .f32 :=
  fun i => cellRelu (a i) (d (ix2 (i 0) (0 : Fin 1))) (h i) (b (ix2 (0 : Fin 1) (i 1)))

end Cert.GraphConv

end
-- ==== Proof.ReferenceStages.lean ====
/-
  The reference's heavy stages, named.

  The reference computes three layers. In each, a stage multiplies the layer's input by the layer's weights (jnp's
  `dot_general`: on the extended reals the plain matrix product, entry (r, q) = ∑ₖ in(r, k) · w(k, q)), and, after the
  edge messages have been added into their target rows, a stage adds the self-loop term and the bias and, in the first
  two layers, cuts off at zero: entry (r, q) = (agg(r, q) + (dis(r) · dis(r)) · h(r, q)) + b(q), where the program spells the
  self-loop weight as a vector broadcast first to a column and then across the columns, and the bias as a vector broadcast
  first to a row and then down the rows. Here each of these six stages is shown to be the product, or the layer's output
  array, of the stages before it, with the self-loop weights as a column and the bias as a row (which is how a row-blocked
  kernel sees them). The three layers compute dis · dis separately, and the three terms are one.
-/
import proofs.«157838_j3212635537778_1_alg».proof.Proof.Gen.ReferenceIdeal.Read
import proofs.«157838_j3212635537778_1_alg».proof.Proof.LibMatrixProduct
import proofs.«157838_j3212635537778_1_alg».proof.Proof.LibColumnBroadcast
import proofs.«157838_j3212635537778_1_alg».proof.Proof.LayerEntry
import Idealize.ShloMosaic.Lib.ValueLayout

noncomputable section

open Idealize.ShloMosaic Idealize.ShloMosaic.TcCoe Idealize.ShloMosaic.ValueIdx

namespace Cert.ReferenceIdeal.Stages

set_option maxHeartbeats 400000

open Cert.ReferenceIdeal Cert.ReferenceIdeal.Read Cert.GraphConv

/-- The second and third layers' dis · dis are the first layer's. -/
theorem dis2_second (x1 : (⟨S2x819200, .i32⟩ : BufTy).Contents (Elt Ideal)) : val_main_v78 (F := Ideal) x1 = val_main_v40 (F := Ideal) x1 := rfl
theorem dis2_third (x1 : (⟨S2x819200, .i32⟩ : BufTy).Contents (Elt Ideal)) : val_main_v116 (F := Ideal) x1 = val_main_v40 (F := Ideal) x1 := rfl

/-- The first layer's linear transform is the product of the features and the first weights. -/
theorem first_product (x0 : (⟨S51200x400, .f32⟩ : BufTy).Contents (Elt Ideal)) (x1 : (⟨S2x819200, .i32⟩ : BufTy).Contents (Elt Ideal)) (x2 : (⟨S400x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x2, .f32⟩ : BufTy).Contents (Elt Ideal)) :
    val_main_v11 (F := Ideal) x0 x2 = MatrixProduct.prod (φ₁ := .f32) (φ₂ := .f32) (x0) x2 := by
  unfold val_main_v11
  exact MatrixProduct.dotGeneral_eq dot_S51200x400_S400x256_S51200x256_1_0_0_1_n_n rfl rfl (fun _ _ => rfl) (fun _ _ => rfl) (fun _ _ => rfl) (fun _ _ => rfl) none _ _

/-- The first layer's output is the layer's output array of its aggregate, the self-loop weights, its linear transform and its bias. -/
theorem first_output (x0 : (⟨S51200x400, .f32⟩ : BufTy).Contents (Elt Ideal)) (x1 : (⟨S2x819200, .i32⟩ : BufTy).Contents (Elt Ideal)) (x2 : (⟨S400x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x2, .f32⟩ : BufTy).Contents (Elt Ideal)) (x7 : (⟨S2, .f32⟩ : BufTy).Contents (Elt Ideal))
    (hc : S51200.ShapeCasts S51200x1) (hr : S256.ShapeCasts S1x256) :
    val_main_v48 (F := Ideal) x0 x1 x2 x3 = combineRelu (F := Ideal) (val_main_v39 (F := Ideal) x0 x1 x2) (shapeCast S51200x1 (val_main_v40 (F := Ideal) x1) hc) (val_main_v11 (F := Ideal) x0 x2) (shapeCast S1x256 x3 hr) := by
  funext i
  obtain ⟨p, q, rfl⟩ : ∃ (p : Fin 51200) (q : Fin 256), i = ix2 p q := ⟨i 0, i 1, eq_ix2 i⟩
  rw [val_main_v48_apply, val_main_v47_apply, val_main_v44_apply, val_main_v43_apply, val_main_v42_apply, val_main_v41_apply, val_main_v46_apply, val_main_v45_apply, val_main_call0_v0_apply, val_main_call0_cst_apply]
  have ed : idx_main_v41 (idx_main_v42 (ix2 p q)) = ix1 p := funext fun a => Fin.ext (by match a with | ⟨0, _⟩ => rfl)
  have eb : idx_main_v45 (idx_main_v46 (ix2 p q)) = ix1 q := funext fun a => Fin.ext (by match a with | ⟨0, _⟩ => rfl)
  rw [ed, eb]
  unfold combineRelu
  rw [ColumnBroadcast.shapeCast_a_a1_apply, shapeCast_a_1a_apply, cellRelu_def]

/-- The second layer's linear transform is the product of the first layer's output and the second weights. -/
theorem second_product (x0 : (⟨S51200x400, .f32⟩ : BufTy).Contents (Elt Ideal)) (x1 : (⟨S2x819200, .i32⟩ : BufTy).Contents (Elt Ideal)) (x2 : (⟨S400x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x2, .f32⟩ : BufTy).Contents (Elt Ideal)) :
    val_main_v49 (F := Ideal) x0 x1 x2 x3 x4 = MatrixProduct.prod (φ₁ := .f32) (φ₂ := .f32) (val_main_v48 (F := Ideal) x0 x1 x2 x3) x4 := by
  unfold val_main_v49
  exact MatrixProduct.dotGeneral_eq dot_S51200x256_S256x256_S51200x256_1_0_0_1_n_n rfl rfl (fun _ _ => rfl) (fun _ _ => rfl) (fun _ _ => rfl) (fun _ _ => rfl) none _ _

/-- The second layer's output, likewise. -/
theorem second_output (x0 : (⟨S51200x400, .f32⟩ : BufTy).Contents (Elt Ideal)) (x1 : (⟨S2x819200, .i32⟩ : BufTy).Contents (Elt Ideal)) (x2 : (⟨S400x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x2, .f32⟩ : BufTy).Contents (Elt Ideal)) (x7 : (⟨S2, .f32⟩ : BufTy).Contents (Elt Ideal))
    (hc : S51200.ShapeCasts S51200x1) (hr : S256.ShapeCasts S1x256) :
    val_main_v86 (F := Ideal) x0 x1 x2 x3 x4 x5 = combineRelu (F := Ideal) (val_main_v77 (F := Ideal) x0 x1 x2 x3 x4) (shapeCast S51200x1 (val_main_v40 (F := Ideal) x1) hc) (val_main_v49 (F := Ideal) x0 x1 x2 x3 x4) (shapeCast S1x256 x5 hr) := by
  funext i
  obtain ⟨p, q, rfl⟩ : ∃ (p : Fin 51200) (q : Fin 256), i = ix2 p q := ⟨i 0, i 1, eq_ix2 i⟩
  rw [val_main_v86_apply, val_main_v85_apply, val_main_v82_apply, val_main_v81_apply, val_main_v80_apply, val_main_v79_apply, val_main_v84_apply, val_main_v83_apply, val_main_call1_v0_apply, val_main_call1_cst_apply, dis2_second]
  have ed : idx_main_v79 (idx_main_v80 (ix2 p q)) = ix1 p := funext fun a => Fin.ext (by match a with | ⟨0, _⟩ => rfl)
  have eb : idx_main_v83 (idx_main_v84 (ix2 p q)) = ix1 q := funext fun a => Fin.ext (by match a with | ⟨0, _⟩ => rfl)
  rw [ed, eb]
  unfold combineRelu
  rw [ColumnBroadcast.shapeCast_a_a1_apply, shapeCast_a_1a_apply, cellRelu_def]

/-- The third layer's linear transform is the product of the second layer's output and the third weights. -/
theorem third_product (x0 : (⟨S51200x400, .f32⟩ : BufTy).Contents (Elt Ideal)) (x1 : (⟨S2x819200, .i32⟩ : BufTy).Contents (Elt Ideal)) (x2 : (⟨S400x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x2, .f32⟩ : BufTy).Contents (Elt Ideal)) :
    val_main_v87 (F := Ideal) x0 x1 x2 x3 x4 x5 x6 = MatrixProduct.prod (φ₁ := .f32) (φ₂ := .f32) (val_main_v86 (F := Ideal) x0 x1 x2 x3 x4 x5) x6 := by
  unfold val_main_v87
  exact MatrixProduct.dotGeneral_eq dot_S51200x256_S256x2_S51200x2_1_0_0_1_n_n rfl rfl (fun _ _ => rfl) (fun _ _ => rfl) (fun _ _ => rfl) (fun _ _ => rfl) none _ _

/-- The third layer's output, likewise, without the cut-off. -/
theorem third_output (x0 : (⟨S51200x400, .f32⟩ : BufTy).Contents (Elt Ideal)) (x1 : (⟨S2x819200, .i32⟩ : BufTy).Contents (Elt Ideal)) (x2 : (⟨S400x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x2, .f32⟩ : BufTy).Contents (Elt Ideal)) (x7 : (⟨S2, .f32⟩ : BufTy).Contents (Elt Ideal))
    (hc : S51200.ShapeCasts S51200x1) (hr : S2.ShapeCasts S1x2) :
    val_main_v123 (F := Ideal) x0 x1 x2 x3 x4 x5 x6 x7 = combine (F := Ideal) (val_main_v115 (F := Ideal) x0 x1 x2 x3 x4 x5 x6) (shapeCast S51200x1 (val_main_v40 (F := Ideal) x1) hc) (val_main_v87 (F := Ideal) x0 x1 x2 x3 x4 x5 x6) (shapeCast S1x2 x7 hr) := by
  funext i
  obtain ⟨p, q, rfl⟩ : ∃ (p : Fin 51200) (q : Fin 2), i = ix2 p q := ⟨i 0, i 1, eq_ix2 i⟩
  rw [val_main_v123_apply, val_main_v120_apply, val_main_v119_apply, val_main_v118_apply, val_main_v117_apply, val_main_v122_apply, val_main_v121_apply, dis2_third]
  have ed : idx_main_v117 (idx_main_v118 (ix2 p q)) = ix1 p := funext fun a => Fin.ext (by match a with | ⟨0, _⟩ => rfl)
  have eb : idx_main_v121 (idx_main_v122 (ix2 p q)) = ix1 q := funext fun a => Fin.ext (by match a with | ⟨0, _⟩ => rfl)
  rw [ed, eb]
  unfold combine
  rw [ColumnBroadcast.shapeCast_a_a1_apply, shapeCast_a_1a_apply, cell_def]

end Cert.ReferenceIdeal.Stages

end
-- ==== Proof.BlockOrigin.lean ====
/-
  A block whose rectangle starts at the origin: the offsets (0, 0) are the zero function.  Every load and store of the six
  kernel bodies goes through such a rectangle (each body reads and writes whole staging blocks).
-/
import Idealize.ShloMosaic.Lib.Pipeline.Value

namespace Cert.KernelIdeal.Hand

/-- The offset vector (0, 0) is the constant zero function. -/
theorem offsets_zero : (![0, 0] : Fin 2 → Nat) = fun _ => 0 := funext fun a => by fin_cases a <;> rfl

end Cert.KernelIdeal.Hand
-- ==== Proof.InputProduct.lean ====
/-
  The first layer's linear transform: the node features times the first weight matrix, as one array.

  Left array: the node features [51200, 400]. Right array: the first weights [400, 256].
  The kernel region walks the 51200 rows in 25 blocks of 2048. At block t its body multiplies rows 2048·t … 2048·t + 2047
  of the left array by the whole right array (the casts to bfloat16 change nothing on the extended reals, and the
  accumulator starts at zero), and writes the block back to the same rows of the result. A row of a product depends only
  on the same row of the left factor, and the 25 blocks tile the result, so after the region the result array is the
  whole product, entry (r, q) = ∑ₖ left(r, k) · right(k, q), whatever the arrays held when the region was entered.
-/
import proofs.«157838_j3212635537778_1_alg».proof.Proof.Gen.KernelIdeal.Frame
import proofs.«157838_j3212635537778_1_alg».proof.Proof.LibMatrixProduct
import proofs.«157838_j3212635537778_1_alg».proof.Proof.BlockOrigin
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- What the body stores is the product of the two blocks it loaded. -/
theorem pay0_eq (x0 : Vec Ideal S2048x400 .f32) (x1 : Vec Ideal S400x256 .f32) :
    k0_pay1 x0 x1 = MatrixProduct.prod (φ₁ := .f32) (φ₂ := .f32) x0 x1 := by
  unfold k0_pay1
  exact MatrixProduct.matmul_zero_eq dot_S2048x400_S400x256_S2048x256_1_0_0_1_n_n rfl rfl (fun _ _ => rfl) (fun _ _ => rfl) (fun _ _ => rfl) (fun _ _ => rfl) none _ _

/-- The index maps over the grid: the left and result windows sit at row block t, the right window stays at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed0 (c : Dev nD) (t : Fin cfg0.N) :
    (dat0 V c).flushed 2 t = ((cfg0.win 2).blk t).view.read (Elt Ideal)
      (MatrixProduct.prod (φ₁ := .f32) (φ₂ := .f32) (V c main_arg0 : S51200x400.Idx → Ideal .f32) (V c main_arg2 : S400x256.Idx → Ideal .f32)) := by
  show (cfg0.win 2).cut (grid0.coords t) ((dat0 V c).after 2 t) = _
  rw [after0_2]
  unfold out0_2
  rw [View.canon_unit_zero offsets_zero]
  simp only [View.ld_unit_zero (S := S2048x400) offsets_zero, View.ld_unit_zero (S := S400x256) offsets_zero]
  rw [pay0_eq]
  funext j
  obtain ⟨e0, e1, e2, e3, e4, e5⟩ := idx0 t
  show MatrixProduct.prod (φ₁ := .f32) (φ₂ := .f32) (iblk0 V c 0 t) (iblk0 V c 1 t) j
    = MatrixProduct.prod (φ₁ := .f32) (φ₂ := .f32) (V c main_arg0 : S51200x400.Idx → Ideal .f32) (V c main_arg2 : S400x256.Idx → Ideal .f32) (((cfg0.win 2).blk t).view.emb j)
  unfold MatrixProduct.prod
  refine Finset.sum_congr rfl fun k _ => ?_
  have h0 : (iblk0 V c 0 t : S2048x400.Idx → Ideal .f32) (ix2 (j 0) k)
      = (V c main_arg0 : S51200x400.Idx → Ideal .f32) (ix2 ((((cfg0.win 2).blk t).view.emb j) 0) k) := by
    show (V c main_arg0 : S51200x400.Idx → Ideal .f32) (((cfg0.win 0).blk t).view.emb (ix2 (j 0) k)) = _
    refine congrArg _ (funext fun a => Fin.ext ?_)
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 400 + 1 * k.val = k.val; omega
  have h1 : (iblk0 V c 1 t : S400x256.Idx → Ideal .f32) (ix2 k (j 1))
      = (V c main_arg2 : S400x256.Idx → Ideal .f32) (ix2 k ((((cfg0.win 2).blk t).view.emb j) 1)) := by
    show (V c main_arg2 : S400x256.Idx → Ideal .f32) (((cfg0.win 1).blk t).view.emb (ix2 k (j 1))) = _
    refine congrArg _ (funext fun a => Fin.ext ?_)
    match a with
    | ⟨0, _⟩ => show win0_1.index t (0 : Fin 2) * 400 + 1 * k.val = k.val; omega
    | ⟨1, _⟩ => show win0_1.index t (1 : Fin 2) * 256 + 1 * (j 1).val = win0_2.index t (1 : Fin 2) * 256 + 1 * (j 1).val; omega
  exact congrArg₂ (· * ·) h0 h1

/-- An index of the result array lies in point t's block iff each coordinate lies in the block's range. -/
theorem mem_blk0 (t : Fin cfg0.N) (i : S51200x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v28).slice (win0_2.rect t)).set ↔ _
  rw [View.set_slice_whole, Rect.mem_set_unit]
  exact Iff.rfl

/-- Row r of the result lies in the block of point r / 2048: the blocks tile the array. -/
theorem cover0 (i : S51200x256.Idx) : ∃ t : Fin cfg0.N, (cfg0.win 2).flush t = true ∧ i ∈ ((cfg0.win 2).blk t).view.set := by
  have hN : cfg0.N = 25 := N_0
  have hi0 : (i 0).val < 51200 := (i 0).isLt
  have hi1 : (i 1).val < 256 := (i 1).isLt
  refine ⟨⟨(i 0).val / 2048, by rw [hN]; omega⟩, flush0_2 _, ?_⟩
  rw [mem_blk0]
  obtain ⟨e0, e1, e2, e3, e4, e5⟩ := idx0 ⟨(i 0).val / 2048, by rw [hN]; omega⟩
  intro a
  match a with
  | ⟨0, _⟩ => show win0_2.index _ (0 : Fin 2) * 2048 ≤ (i 0).val ∧ (i 0).val < win0_2.index _ (0 : Fin 2) * 2048 + 2048; rw [e4]; show (i 0).val / 2048 * 2048 ≤ (i 0).val ∧ (i 0).val < (i 0).val / 2048 * 2048 + 2048; omega
  | ⟨1, _⟩ => show win0_2.index _ (1 : Fin 2) * 256 ≤ (i 1).val ∧ (i 1).val < win0_2.index _ (1 : Fin 2) * 256 + 256; rw [e5]; omega

/-- THE REGION'S RESULT ARRAY is the whole product of the two arrays its input windows are on. -/
theorem array0 (c : Dev nD) :
    (dat0 V c).arrAt 2 cfg0.N = MatrixProduct.prod (φ₁ := .f32) (φ₂ := .f32) (V c main_arg0 : S51200x400.Idx → Ideal .f32) (V c main_arg2 : S400x256.Idx → Ideal .f32) :=
  (dat0 V c).arrAt_eq_of_cover 2 _ (fun t _ => flushed0 V c t) cover0

end Cert.KernelIdeal.Hand

end
-- ==== Proof.HiddenProduct.lean ====
/-
  The second layer's linear transform: the first layer's output times the second weight matrix, as one array.

  Left array: the first layer's output [51200, 256]. Right array: the second weights [256, 256].
  The kernel region walks the 51200 rows in 25 blocks of 2048. At block t its body multiplies rows 2048·t … 2048·t + 2047
  of the left array by the whole right array (the casts to bfloat16 change nothing on the extended reals, and the
  accumulator starts at zero), and writes the block back to the same rows of the result. A row of a product depends only
  on the same row of the left factor, and the 25 blocks tile the result, so after the region the result array is the
  whole product, entry (r, q) = ∑ₖ left(r, k) · right(k, q), whatever the arrays held when the region was entered.
-/
import proofs.«157838_j3212635537778_1_alg».proof.Proof.Gen.KernelIdeal.Frame
import proofs.«157838_j3212635537778_1_alg».proof.Proof.LibMatrixProduct
import proofs.«157838_j3212635537778_1_alg».proof.Proof.BlockOrigin
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- What the body stores is the product of the two blocks it loaded. -/
theorem pay2_eq (x0 : Vec Ideal S2048x256 .f32) (x1 : Vec Ideal S256x256 .f32) :
    k2_pay1 x0 x1 = MatrixProduct.prod (φ₁ := .f32) (φ₂ := .f32) x0 x1 := by
  unfold k2_pay1
  rw [shapeCast_self]
  exact MatrixProduct.matmul_zero_eq dot_S2048x256_S256x256_S2048x256_1_0_0_1_n_n rfl rfl (fun _ _ => rfl) (fun _ _ => rfl) (fun _ _ => rfl) (fun _ _ => rfl) none _ _

/-- The index maps over the grid: the left and result windows sit at row block t, the right window stays at the origin. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product. -/
theorem flushed2 (c : Dev nD) (t : Fin cfg2.N) :
    (dat2 V c).flushed 2 t = ((cfg2.win 2).blk t).view.read (Elt Ideal)
      (MatrixProduct.prod (φ₁ := .f32) (φ₂ := .f32) (V c main_v43 : S51200x256.Idx → Ideal .f32) (V c main_arg4 : S256x256.Idx → Ideal .f32)) := by
  show (cfg2.win 2).cut (grid2.coords t) ((dat2 V c).after 2 t) = _
  rw [after2_2]
  unfold out2_2
  rw [View.canon_unit_zero offsets_zero]
  simp only [View.ld_unit_zero (S := S2048x256) offsets_zero, View.ld_unit_zero (S := S256x256) offsets_zero]
  rw [pay2_eq]
  funext j
  obtain ⟨e0, e1, e2, e3, e4, e5⟩ := idx2 t
  show MatrixProduct.prod (φ₁ := .f32) (φ₂ := .f32) (iblk2 V c 0 t) (iblk2 V c 1 t) j
    = MatrixProduct.prod (φ₁ := .f32) (φ₂ := .f32) (V c main_v43 : S51200x256.Idx → Ideal .f32) (V c main_arg4 : S256x256.Idx → Ideal .f32) (((cfg2.win 2).blk t).view.emb j)
  unfold MatrixProduct.prod
  refine Finset.sum_congr rfl fun k _ => ?_
  have h0 : (iblk2 V c 0 t : S2048x256.Idx → Ideal .f32) (ix2 (j 0) k)
      = (V c main_v43 : S51200x256.Idx → Ideal .f32) (ix2 ((((cfg2.win 2).blk t).view.emb j) 0) k) := by
    show (V c main_v43 : S51200x256.Idx → Ideal .f32) (((cfg2.win 0).blk t).view.emb (ix2 (j 0) k)) = _
    refine congrArg _ (funext fun a => Fin.ext ?_)
    match a with
    | ⟨0, _⟩ => show win2_0.index t (0 : Fin 2) * 2048 + 1 * (j 0).val = win2_2.index t (0 : Fin 2) * 2048 + 1 * (j 0).val; omega
    | ⟨1, _⟩ => show win2_0.index t (1 : Fin 2) * 256 + 1 * k.val = k.val; omega
  have h1 : (iblk2 V c 1 t : S256x256.Idx → Ideal .f32) (ix2 k (j 1))
      = (V c main_arg4 : S256x256.Idx → Ideal .f32) (ix2 k ((((cfg2.win 2).blk t).view.emb j) 1)) := by
    show (V c main_arg4 : S256x256.Idx → Ideal .f32) (((cfg2.win 1).blk t).view.emb (ix2 k (j 1))) = _
    refine congrArg _ (funext fun a => Fin.ext ?_)
    match a with
    | ⟨0, _⟩ => show win2_1.index t (0 : Fin 2) * 256 + 1 * k.val = k.val; omega
    | ⟨1, _⟩ => show win2_1.index t (1 : Fin 2) * 256 + 1 * (j 1).val = win2_2.index t (1 : Fin 2) * 256 + 1 * (j 1).val; omega
  exact congrArg₂ (· * ·) h0 h1

/-- An index of the result array lies in point t's block iff each coordinate lies in the block's range. -/
theorem mem_blk2 (t : Fin cfg2.N) (i : S51200x256.Idx) :
    i ∈ ((cfg2.win 2).blk t).view.set ↔ ∀ a : Fin 2, win2_2.index t a * S2048x256.size a ≤ (i a).val ∧ (i a).val < win2_2.index t a * S2048x256.size a + S2048x256.size a := by
  show i ∈ ((View.whole main_v44).slice (win2_2.rect t)).set ↔ _
  rw [View.set_slice_whole, Rect.mem_set_unit]
  exact Iff.rfl

/-- Row r of the result lies in the block of point r / 2048: the blocks tile the array. -/
theorem cover2 (i : S51200x256.Idx) : ∃ t : Fin cfg2.N, (cfg2.win 2).flush t = true ∧ i ∈ ((cfg2.win 2).blk t).view.set := by
  have hN : cfg2.N = 25 := N_2
  have hi0 : (i 0).val < 51200 := (i 0).isLt
  have hi1 : (i 1).val < 256 := (i 1).isLt
  refine ⟨⟨(i 0).val / 2048, by rw [hN]; omega⟩, flush2_2 _, ?_⟩
  rw [mem_blk2]
  obtain ⟨e0, e1, e2, e3, e4, e5⟩ := idx2 ⟨(i 0).val / 2048, by rw [hN]; omega⟩
  intro a
  match a with
  | ⟨0, _⟩ => show win2_2.index _ (0 : Fin 2) * 2048 ≤ (i 0).val ∧ (i 0).val < win2_2.index _ (0 : Fin 2) * 2048 + 2048; rw [e4]; show (i 0).val / 2048 * 2048 ≤ (i 0).val ∧ (i 0).val < (i 0).val / 2048 * 2048 + 2048; omega
  | ⟨1, _⟩ => show win2_2.index _ (1 : Fin 2) * 256 ≤ (i 1).val ∧ (i 1).val < win2_2.index _ (1 : Fin 2) * 256 + 256; rw [e5]; omega

/-- THE REGION'S RESULT ARRAY is the whole product of the two arrays its input windows are on. -/
theorem array2 (c : Dev nD) :
    (dat2 V c).arrAt 2 cfg2.N = MatrixProduct.prod (φ₁ := .f32) (φ₂ := .f32) (V c main_v43 : S51200x256.Idx → Ideal .f32) (V c main_arg4 : S256x256.Idx → Ideal .f32) :=
  (dat2 V c).arrAt_eq_of_cover 2 _ (fun t _ => flushed2 V c t) cover2

end Cert.KernelIdeal.Hand

end
-- ==== Proof.OutputProduct.lean ====
/-
  The third layer's linear transform: the second layer's output times the third weight matrix, as one array.

  Left array: the second layer's output [51200, 256]. Right array: the third weights [256, 2].
  The kernel region walks the 51200 rows in 25 blocks of 2048. At block t its body multiplies rows 2048·t … 2048·t + 2047
  of the left array by the whole right array (the casts to bfloat16 change nothing on the extended reals, and the
  accumulator starts at zero), and writes the block back to the same rows of the result. A row of a product depends only
  on the same row of the left factor, and the 25 blocks tile the result, so after the region the result array is the
  whole product, entry (r, q) = ∑ₖ left(r, k) · right(k, q), whatever the arrays held when the region was entered.
-/
import proofs.«157838_j3212635537778_1_alg».proof.Proof.Gen.KernelIdeal.Frame
import proofs.«157838_j3212635537778_1_alg».proof.Proof.LibMatrixProduct
import proofs.«157838_j3212635537778_1_alg».proof.Proof.BlockOrigin
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- What the body stores is the product of the two blocks it loaded. -/
theorem pay4_eq (x0 : Vec Ideal S2048x256 .f32) (x1 : Vec Ideal S256x2 .f32) :
    k4_pay1 x0 x1 = MatrixProduct.prod (φ₁ := .f32) (φ₂ := .f32) x0 x1 := by
  unfold k4_pay1
  rw [shapeCast_self]
  exact MatrixProduct.matmul_zero_eq dot_S2048x256_S256x2_S2048x2_1_0_0_1_n_n rfl rfl (fun _ _ => rfl) (fun _ _ => rfl) (fun _ _ => rfl) (fun _ _ => rfl) none _ _

/-- The index maps over the grid: the left and result windows sit at row block t, the right window stays at the origin. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole product. -/
theorem flushed4 (c : Dev nD) (t : Fin cfg4.N) :
    (dat4 V c).flushed 2 t = ((cfg4.win 2).blk t).view.read (Elt Ideal)
      (MatrixProduct.prod (φ₁ := .f32) (φ₂ := .f32) (V c main_v59 : S51200x256.Idx → Ideal .f32) (V c main_arg6 : S256x2.Idx → Ideal .f32)) := by
  show (cfg4.win 2).cut (grid4.coords t) ((dat4 V c).after 2 t) = _
  rw [after4_2]
  unfold out4_2
  rw [View.canon_unit_zero offsets_zero]
  simp only [View.ld_unit_zero (S := S2048x256) offsets_zero, View.ld_unit_zero (S := S256x2) offsets_zero]
  rw [pay4_eq]
  funext j
  obtain ⟨e0, e1, e2, e3, e4, e5⟩ := idx4 t
  show MatrixProduct.prod (φ₁ := .f32) (φ₂ := .f32) (iblk4 V c 0 t) (iblk4 V c 1 t) j
    = MatrixProduct.prod (φ₁ := .f32) (φ₂ := .f32) (V c main_v59 : S51200x256.Idx → Ideal .f32) (V c main_arg6 : S256x2.Idx → Ideal .f32) (((cfg4.win 2).blk t).view.emb j)
  unfold MatrixProduct.prod
  refine Finset.sum_congr rfl fun k _ => ?_
  have h0 : (iblk4 V c 0 t : S2048x256.Idx → Ideal .f32) (ix2 (j 0) k)
      = (V c main_v59 : S51200x256.Idx → Ideal .f32) (ix2 ((((cfg4.win 2).blk t).view.emb j) 0) k) := by
    show (V c main_v59 : S51200x256.Idx → Ideal .f32) (((cfg4.win 0).blk t).view.emb (ix2 (j 0) k)) = _
    refine congrArg _ (funext fun a => Fin.ext ?_)
    match a with
    | ⟨0, _⟩ => show win4_0.index t (0 : Fin 2) * 2048 + 1 * (j 0).val = win4_2.index t (0 : Fin 2) * 2048 + 1 * (j 0).val; omega
    | ⟨1, _⟩ => show win4_0.index t (1 : Fin 2) * 256 + 1 * k.val = k.val; omega
  have h1 : (iblk4 V c 1 t : S256x2.Idx → Ideal .f32) (ix2 k (j 1))
      = (V c main_arg6 : S256x2.Idx → Ideal .f32) (ix2 k ((((cfg4.win 2).blk t).view.emb j) 1)) := by
    show (V c main_arg6 : S256x2.Idx → Ideal .f32) (((cfg4.win 1).blk t).view.emb (ix2 k (j 1))) = _
    refine congrArg _ (funext fun a => Fin.ext ?_)
    match a with
    | ⟨0, _⟩ => show win4_1.index t (0 : Fin 2) * 256 + 1 * k.val = k.val; omega
    | ⟨1, _⟩ => show win4_1.index t (1 : Fin 2) * 2 + 1 * (j 1).val = win4_2.index t (1 : Fin 2) * 2 + 1 * (j 1).val; omega
  exact congrArg₂ (· * ·) h0 h1

/-- An index of the result array lies in point t's block iff each coordinate lies in the block's range. -/
theorem mem_blk4 (t : Fin cfg4.N) (i : S51200x2.Idx) :
    i ∈ ((cfg4.win 2).blk t).view.set ↔ ∀ a : Fin 2, win4_2.index t a * S2048x2.size a ≤ (i a).val ∧ (i a).val < win4_2.index t a * S2048x2.size a + S2048x2.size a := by
  show i ∈ ((View.whole main_v60).slice (win4_2.rect t)).set ↔ _
  rw [View.set_slice_whole, Rect.mem_set_unit]
  exact Iff.rfl

/-- Row r of the result lies in the block of point r / 2048: the blocks tile the array. -/
theorem cover4 (i : S51200x2.Idx) : ∃ t : Fin cfg4.N, (cfg4.win 2).flush t = true ∧ i ∈ ((cfg4.win 2).blk t).view.set := by
  have hN : cfg4.N = 25 := N_4
  have hi0 : (i 0).val < 51200 := (i 0).isLt
  have hi1 : (i 1).val < 2 := (i 1).isLt
  refine ⟨⟨(i 0).val / 2048, by rw [hN]; omega⟩, flush4_2 _, ?_⟩
  rw [mem_blk4]
  obtain ⟨e0, e1, e2, e3, e4, e5⟩ := idx4 ⟨(i 0).val / 2048, by rw [hN]; omega⟩
  intro a
  match a with
  | ⟨0, _⟩ => show win4_2.index _ (0 : Fin 2) * 2048 ≤ (i 0).val ∧ (i 0).val < win4_2.index _ (0 : Fin 2) * 2048 + 2048; rw [e4]; show (i 0).val / 2048 * 2048 ≤ (i 0).val ∧ (i 0).val < (i 0).val / 2048 * 2048 + 2048; omega
  | ⟨1, _⟩ => show win4_2.index _ (1 : Fin 2) * 2 ≤ (i 1).val ∧ (i 1).val < win4_2.index _ (1 : Fin 2) * 2 + 2; rw [e5]; omega

/-- THE REGION'S RESULT ARRAY is the whole product of the two arrays its input windows are on. -/
theorem array4 (c : Dev nD) :
    (dat4 V c).arrAt 2 cfg4.N = MatrixProduct.prod (φ₁ := .f32) (φ₂ := .f32) (V c main_v59 : S51200x256.Idx → Ideal .f32) (V c main_arg6 : S256x2.Idx → Ideal .f32) :=
  (dat4 V c).arrAt_eq_of_cover 2 _ (fun t _ => flushed4 V c t) cover4

end Cert.KernelIdeal.Hand

end
-- ==== Proof.FirstCombine.lean ====
/-
  The first layer's output: aggregate plus self-loop term plus bias, cut off at zero, as one array.

  Arrays: the aggregate [51200, 256], the transformed features [51200, 256], the self-loop weights [51200, 1], the bias [1, 256].
  The kernel region walks the 51200 rows in 25 blocks of 2048. At block t its body loads rows 2048·t … 2048·t + 2047 of the
  aggregate, of the transformed features and of the column of self-loop weights, and the whole row of biases; for every
  entry (p, q) of the block it forms (aggregate + weight(p) · feature) + bias(q), cuts it off at zero, and writes the block back to the
  same rows of the result. Each entry depends only on the same entry of the aggregate and of the features, on the
  weight of its row and on the bias of its column, and the 25 blocks tile the result: after the region the result array
  is the layer's output array, whatever the arrays held when the region was entered.
-/
import proofs.«157838_j3212635537778_1_alg».proof.Proof.Gen.KernelIdeal.Frame
import proofs.«157838_j3212635537778_1_alg».proof.Proof.LayerEntry
import proofs.«157838_j3212635537778_1_alg».proof.Proof.LibColumnBroadcast
import proofs.«157838_j3212635537778_1_alg».proof.Proof.BlockOrigin
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.GraphConv

variable (V : (c : Dev nD) → (b : Ref sig .tc) → Buf (Elt Ideal) ((c : Thread nD τ).loc b))

/-- What the body stores, at entry (p, q) of the block: the layer's entry of the four loaded blocks, the weight read
    in column 0 of its row and the bias in row 0 of its column. -/
theorem pay1_apply (x0 : Vec Ideal S2048x256 .f32) (x2 : Vec Ideal S2048x1 .f32) (x4 : Vec Ideal S2048x256 .f32) (x9 : Vec Ideal S1x256 .f32)
    (p : Fin 2048) (q : Fin 256) :
    k1_pay1 x0 x2 x4 x9 (ix2 p q) = cellRelu (F := Ideal) (x0 (ix2 p q)) (x2 (ix2 p (0 : Fin 1))) (x4 (ix2 p q)) (x9 (ix2 (0 : Fin 1) q)) := by
  unfold k1_pay1
  simp only [shapeCast_self]
  show ((FloatOps.maximumf (FloatOps.addf (FloatOps.addf (x0 (ix2 p q)) (FloatOps.mulf (broadcastTo S2048x256 (x2 : FVec Ideal S2048x1 .f32) broadcasts_S2048x1_S2048x256 (ix2 p q)) (x4 (ix2 p q)))) (broadcastTo S2048x256 (x9 : FVec Ideal S1x256 .f32) broadcasts_S1x256_S2048x256 (ix2 p q))) (FloatOps.ofBits .f32 0x00000000#32)) : Ideal .f32) = _
  rw [ColumnBroadcast.broadcastTo_a1_ab_apply, broadcastTo_1b_ab_apply]
  rfl

/-- The index maps over the grid: the aggregate, the features, the weights and the result sit at row block t, the bias
    row stays at the origin. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the layer's output array. -/
theorem flushed1 (c : Dev nD) (t : Fin cfg1.N) :
    (dat1 V c).flushed 4 t = ((cfg1.win 4).blk t).view.read (Elt Ideal)
      (combineRelu (F := Ideal) (V c main_v41 : S51200x256.Idx → Ideal .f32) (V c main_v27 : S51200x1.Idx → Ideal .f32)
        (V c main_v28 : S51200x256.Idx → Ideal .f32) (V c main_v42 : S1x256.Idx → Ideal .f32)) := by
  show (cfg1.win 4).cut (grid1.coords t) ((dat1 V c).after 4 t) = _
  rw [after1_4]
  unfold out1_4
  rw [View.canon_unit_zero offsets_zero]
  simp only [View.ld_unit_zero (S := S2048x256) offsets_zero, View.ld_unit_zero (S := S2048x1) offsets_zero, View.ld_unit_zero (S := S1x256) offsets_zero]
  funext j
  obtain ⟨p, q, rfl⟩ : ∃ (p : Fin 2048) (q : Fin 256), j = ix2 p q := ⟨j 0, j 1, eq_ix2 j⟩
  obtain ⟨e00, e01, e10, e11, e20, e21, e30, e31, e40, e41⟩ := idx1 t
  refine (pay1_apply (iblk1 V c 0 t) (iblk1 V c 2 t) (iblk1 V c 1 t) (iblk1 V c 3 t) p q).trans ?_
  show cellRelu (F := Ideal) _ _ _ _
    = cellRelu (F := Ideal) ((V c main_v41 : S51200x256.Idx → Ideal .f32) (((cfg1.win 4).blk t).view.emb (ix2 p q)))
        ((V c main_v27 : S51200x1.Idx → Ideal .f32) (ix2 ((((cfg1.win 4).blk t).view.emb (ix2 p q)) 0) (0 : Fin 1)))
        ((V c main_v28 : S51200x256.Idx → Ideal .f32) (((cfg1.win 4).blk t).view.emb (ix2 p q)))
        ((V c main_v42 : S1x256.Idx → Ideal .f32) (ix2 (0 : Fin 1) ((((cfg1.win 4).blk t).view.emb (ix2 p q)) 1)))
  refine cellRelu_congr ?_ ?_ ?_ ?_
  · show (V c main_v41 : S51200x256.Idx → Ideal .f32) (((cfg1.win 0).blk t).view.emb (ix2 p q)) = _
    refine congrArg _ (funext fun a => Fin.ext ?_)
    match a with
    | ⟨0, _⟩ => show win1_0.index t (0 : Fin 2) * 2048 + 1 * p.val = win1_4.index t (0 : Fin 2) * 2048 + 1 * p.val; omega
    | ⟨1, _⟩ => show win1_0.index t (1 : Fin 2) * 256 + 1 * q.val = win1_4.index t (1 : Fin 2) * 256 + 1 * q.val; omega
  · show (V c main_v27 : S51200x1.Idx → Ideal .f32) (((cfg1.win 2).blk t).view.emb (ix2 p (0 : Fin 1))) = _
    refine congrArg _ (funext fun a => Fin.ext ?_)
    match a with
    | ⟨0, _⟩ => show win1_2.index t (0 : Fin 2) * 2048 + 1 * p.val = win1_4.index t (0 : Fin 2) * 2048 + 1 * p.val; omega
    | ⟨1, _⟩ => show win1_2.index t (1 : Fin 2) * 1 + 1 * 0 = 0; omega
  · show (V c main_v28 : S51200x256.Idx → Ideal .f32) (((cfg1.win 1).blk t).view.emb (ix2 p q)) = _
    refine congrArg _ (funext fun a => Fin.ext ?_)
    match a with
    | ⟨0, _⟩ => show win1_1.index t (0 : Fin 2) * 2048 + 1 * p.val = win1_4.index t (0 : Fin 2) * 2048 + 1 * p.val; omega
    | ⟨1, _⟩ => show win1_1.index t (1 : Fin 2) * 256 + 1 * q.val = win1_4.index t (1 : Fin 2) * 256 + 1 * q.val; omega
  · show (V c main_v42 : S1x256.Idx → Ideal .f32) (((cfg1.win 3).blk t).view.emb (ix2 (0 : Fin 1) q)) = _
    refine congrArg _ (funext fun a => Fin.ext ?_)
    match a with
    | ⟨0, _⟩ => show win1_3.index t (0 : Fin 2) * 1 + 1 * 0 = 0; omega
    | ⟨1, _⟩ => show win1_3.index t (1 : Fin 2) * 256 + 1 * q.val = win1_4.index t (1 : Fin 2) * 256 + 1 * q.val; omega

/-- An index of the result array lies in point t's block iff each coordinate lies in the block's range. -/
theorem mem_blk1 (t : Fin cfg1.N) (i : S51200x256.Idx) :
    i ∈ ((cfg1.win 4).blk t).view.set ↔ ∀ a : Fin 2, win1_4.index t a * S2048x256.size a ≤ (i a).val ∧ (i a).val < win1_4.index t a * S2048x256.size a + S2048x256.size a := by
  show i ∈ ((View.whole main_v43).slice (win1_4.rect t)).set ↔ _
  rw [View.set_slice_whole, Rect.mem_set_unit]
  exact Iff.rfl

/-- Row r of the result lies in the block of point r / 2048: the blocks tile the array. -/
theorem cover1 (i : S51200x256.Idx) : ∃ t : Fin cfg1.N, (cfg1.win 4).flush t = true ∧ i ∈ ((cfg1.win 4).blk t).view.set := by
  have hN : cfg1.N = 25 := N_1
  have hi0 : (i 0).val < 51200 := (i 0).isLt
  have hi1 : (i 1).val < 256 := (i 1).isLt
  refine ⟨⟨(i 0).val / 2048, by rw [hN]; omega⟩, flush1_4 _, ?_⟩
  rw [mem_blk1]
  obtain ⟨e00, e01, e10, e11, e20, e21, e30, e31, e40, e41⟩ := idx1 ⟨(i 0).val / 2048, by rw [hN]; omega⟩
  intro a
  match a with
  | ⟨0, _⟩ => show win1_4.index _ (0 : Fin 2) * 2048 ≤ (i 0).val ∧ (i 0).val < win1_4.index _ (0 : Fin 2) * 2048 + 2048; rw [e40]; show (i 0).val / 2048 * 2048 ≤ (i 0).val ∧ (i 0).val < (i 0).val / 2048 * 2048 + 2048; omega
  | ⟨1, _⟩ => show win1_4.index _ (1 : Fin 2) * 256 ≤ (i 1).val ∧ (i 1).val < win1_4.index _ (1 : Fin 2) * 256 + 256; rw [e41]; omega

/-- THE REGION'S RESULT ARRAY is the layer's output array of the four arrays its input windows are on. -/
theorem array1 (c : Dev nD) :
    (dat1 V c).arrAt 4 cfg1.N = combineRelu (F := Ideal) (V c main_v41 : S51200x256.Idx → Ideal .f32) (V c main_v27 : S51200x1.Idx → Ideal .f32)
        (V c main_v28 : S51200x256.Idx → Ideal .f32) (V c main_v42 : S1x256.Idx → Ideal .f32) :=
  (dat1 V c).arrAt_eq_of_cover 4 _ (fun t _ => flushed1 V c t) cover1

end Cert.KernelIdeal.Hand

end
-- ==== Proof.SecondCombine.lean ====
/-
  The second layer's output: aggregate plus self-loop term plus bias, cut off at zero, as one array.

  Arrays: the aggregate [51200, 256], the transformed features [51200, 256], the self-loop weights [51200, 1], the bias [1, 256].
  The kernel region walks the 51200 rows in 25 blocks of 2048. At block t its body loads rows 2048·t … 2048·t + 2047 of the
  aggregate, of the transformed features and of the column of self-loop weights, and the whole row of biases; for every
  entry (p, q) of the block it forms (aggregate + weight(p) · feature) + bias(q), cuts it off at zero, and writes the block back to the
  same rows of the result. Each entry depends only on the same entry of the aggregate and of the features, on the
  weight of its row and on the bias of its column, and the 25 blocks tile the result: after the region the result array
  is the layer's output array, whatever the arrays held when the region was entered.
-/
import proofs.«157838_j3212635537778_1_alg».proof.Proof.Gen.KernelIdeal.Frame
import proofs.«157838_j3212635537778_1_alg».proof.Proof.LayerEntry
import proofs.«157838_j3212635537778_1_alg».proof.Proof.LibColumnBroadcast
import proofs.«157838_j3212635537778_1_alg».proof.Proof.BlockOrigin
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.GraphConv

variable (V : (c : Dev nD) → (b : Ref sig .tc) → Buf (Elt Ideal) ((c : Thread nD τ).loc b))

/-- What the body stores, at entry (p, q) of the block: the layer's entry of the four loaded blocks, the weight read
    in column 0 of its row and the bias in row 0 of its column. -/
theorem pay3_apply (x0 : Vec Ideal S2048x256 .f32) (x2 : Vec Ideal S2048x1 .f32) (x4 : Vec Ideal S2048x256 .f32) (x9 : Vec Ideal S1x256 .f32)
    (p : Fin 2048) (q : Fin 256) :
    k3_pay1 x0 x2 x4 x9 (ix2 p q) = cellRelu (F := Ideal) (x0 (ix2 p q)) (x2 (ix2 p (0 : Fin 1))) (x4 (ix2 p q)) (x9 (ix2 (0 : Fin 1) q)) := by
  unfold k3_pay1
  simp only [shapeCast_self]
  show ((FloatOps.maximumf (FloatOps.addf (FloatOps.addf (x0 (ix2 p q)) (FloatOps.mulf (broadcastTo S2048x256 (x2 : FVec Ideal S2048x1 .f32) broadcasts_S2048x1_S2048x256 (ix2 p q)) (x4 (ix2 p q)))) (broadcastTo S2048x256 (x9 : FVec Ideal S1x256 .f32) broadcasts_S1x256_S2048x256 (ix2 p q))) (FloatOps.ofBits .f32 0x00000000#32)) : Ideal .f32) = _
  rw [ColumnBroadcast.broadcastTo_a1_ab_apply, broadcastTo_1b_ab_apply]
  rfl

/-- The index maps over the grid: the aggregate, the features, the weights and the result sit at row block t, the bias
    row stays at the origin. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the layer's output array. -/
theorem flushed3 (c : Dev nD) (t : Fin cfg3.N) :
    (dat3 V c).flushed 4 t = ((cfg3.win 4).blk t).view.read (Elt Ideal)
      (combineRelu (F := Ideal) (V c main_v57 : S51200x256.Idx → Ideal .f32) (V c main_v27 : S51200x1.Idx → Ideal .f32)
        (V c main_v44 : S51200x256.Idx → Ideal .f32) (V c main_v58 : S1x256.Idx → Ideal .f32)) := by
  show (cfg3.win 4).cut (grid3.coords t) ((dat3 V c).after 4 t) = _
  rw [after3_4]
  unfold out3_4
  rw [View.canon_unit_zero offsets_zero]
  simp only [View.ld_unit_zero (S := S2048x256) offsets_zero, View.ld_unit_zero (S := S2048x1) offsets_zero, View.ld_unit_zero (S := S1x256) offsets_zero]
  funext j
  obtain ⟨p, q, rfl⟩ : ∃ (p : Fin 2048) (q : Fin 256), j = ix2 p q := ⟨j 0, j 1, eq_ix2 j⟩
  obtain ⟨e00, e01, e10, e11, e20, e21, e30, e31, e40, e41⟩ := idx3 t
  refine (pay3_apply (iblk3 V c 0 t) (iblk3 V c 2 t) (iblk3 V c 1 t) (iblk3 V c 3 t) p q).trans ?_
  show cellRelu (F := Ideal) _ _ _ _
    = cellRelu (F := Ideal) ((V c main_v57 : S51200x256.Idx → Ideal .f32) (((cfg3.win 4).blk t).view.emb (ix2 p q)))
        ((V c main_v27 : S51200x1.Idx → Ideal .f32) (ix2 ((((cfg3.win 4).blk t).view.emb (ix2 p q)) 0) (0 : Fin 1)))
        ((V c main_v44 : S51200x256.Idx → Ideal .f32) (((cfg3.win 4).blk t).view.emb (ix2 p q)))
        ((V c main_v58 : S1x256.Idx → Ideal .f32) (ix2 (0 : Fin 1) ((((cfg3.win 4).blk t).view.emb (ix2 p q)) 1)))
  refine cellRelu_congr ?_ ?_ ?_ ?_
  · show (V c main_v57 : S51200x256.Idx → Ideal .f32) (((cfg3.win 0).blk t).view.emb (ix2 p q)) = _
    refine congrArg _ (funext fun a => Fin.ext ?_)
    match a with
    | ⟨0, _⟩ => show win3_0.index t (0 : Fin 2) * 2048 + 1 * p.val = win3_4.index t (0 : Fin 2) * 2048 + 1 * p.val; omega
    | ⟨1, _⟩ => show win3_0.index t (1 : Fin 2) * 256 + 1 * q.val = win3_4.index t (1 : Fin 2) * 256 + 1 * q.val; omega
  · show (V c main_v27 : S51200x1.Idx → Ideal .f32) (((cfg3.win 2).blk t).view.emb (ix2 p (0 : Fin 1))) = _
    refine congrArg _ (funext fun a => Fin.ext ?_)
    match a with
    | ⟨0, _⟩ => show win3_2.index t (0 : Fin 2) * 2048 + 1 * p.val = win3_4.index t (0 : Fin 2) * 2048 + 1 * p.val; omega
    | ⟨1, _⟩ => show win3_2.index t (1 : Fin 2) * 1 + 1 * 0 = 0; omega
  · show (V c main_v44 : S51200x256.Idx → Ideal .f32) (((cfg3.win 1).blk t).view.emb (ix2 p q)) = _
    refine congrArg _ (funext fun a => Fin.ext ?_)
    match a with
    | ⟨0, _⟩ => show win3_1.index t (0 : Fin 2) * 2048 + 1 * p.val = win3_4.index t (0 : Fin 2) * 2048 + 1 * p.val; omega
    | ⟨1, _⟩ => show win3_1.index t (1 : Fin 2) * 256 + 1 * q.val = win3_4.index t (1 : Fin 2) * 256 + 1 * q.val; omega
  · show (V c main_v58 : S1x256.Idx → Ideal .f32) (((cfg3.win 3).blk t).view.emb (ix2 (0 : Fin 1) q)) = _
    refine congrArg _ (funext fun a => Fin.ext ?_)
    match a with
    | ⟨0, _⟩ => show win3_3.index t (0 : Fin 2) * 1 + 1 * 0 = 0; omega
    | ⟨1, _⟩ => show win3_3.index t (1 : Fin 2) * 256 + 1 * q.val = win3_4.index t (1 : Fin 2) * 256 + 1 * q.val; omega

/-- An index of the result array lies in point t's block iff each coordinate lies in the block's range. -/
theorem mem_blk3 (t : Fin cfg3.N) (i : S51200x256.Idx) :
    i ∈ ((cfg3.win 4).blk t).view.set ↔ ∀ a : Fin 2, win3_4.index t a * S2048x256.size a ≤ (i a).val ∧ (i a).val < win3_4.index t a * S2048x256.size a + S2048x256.size a := by
  show i ∈ ((View.whole main_v59).slice (win3_4.rect t)).set ↔ _
  rw [View.set_slice_whole, Rect.mem_set_unit]
  exact Iff.rfl

/-- Row r of the result lies in the block of point r / 2048: the blocks tile the array. -/
theorem cover3 (i : S51200x256.Idx) : ∃ t : Fin cfg3.N, (cfg3.win 4).flush t = true ∧ i ∈ ((cfg3.win 4).blk t).view.set := by
  have hN : cfg3.N = 25 := N_3
  have hi0 : (i 0).val < 51200 := (i 0).isLt
  have hi1 : (i 1).val < 256 := (i 1).isLt
  refine ⟨⟨(i 0).val / 2048, by rw [hN]; omega⟩, flush3_4 _, ?_⟩
  rw [mem_blk3]
  obtain ⟨e00, e01, e10, e11, e20, e21, e30, e31, e40, e41⟩ := idx3 ⟨(i 0).val / 2048, by rw [hN]; omega⟩
  intro a
  match a with
  | ⟨0, _⟩ => show win3_4.index _ (0 : Fin 2) * 2048 ≤ (i 0).val ∧ (i 0).val < win3_4.index _ (0 : Fin 2) * 2048 + 2048; rw [e40]; show (i 0).val / 2048 * 2048 ≤ (i 0).val ∧ (i 0).val < (i 0).val / 2048 * 2048 + 2048; omega
  | ⟨1, _⟩ => show win3_4.index _ (1 : Fin 2) * 256 ≤ (i 1).val ∧ (i 1).val < win3_4.index _ (1 : Fin 2) * 256 + 256; rw [e41]; omega

/-- THE REGION'S RESULT ARRAY is the layer's output array of the four arrays its input windows are on. -/
theorem array3 (c : Dev nD) :
    (dat3 V c).arrAt 4 cfg3.N = combineRelu (F := Ideal) (V c main_v57 : S51200x256.Idx → Ideal .f32) (V c main_v27 : S51200x1.Idx → Ideal .f32)
        (V c main_v44 : S51200x256.Idx → Ideal .f32) (V c main_v58 : S1x256.Idx → Ideal .f32) :=
  (dat3 V c).arrAt_eq_of_cover 4 _ (fun t _ => flushed3 V c t) cover3

end Cert.KernelIdeal.Hand

end
-- ==== Proof.ThirdCombine.lean ====
/-
  The third layer's output: aggregate plus self-loop term plus bias (no cut-off), as one array.

  Arrays: the aggregate [51200, 2], the transformed features [51200, 2], the self-loop weights [51200, 1], the bias [1, 2].
  The kernel region walks the 51200 rows in 25 blocks of 2048. At block t its body loads rows 2048·t … 2048·t + 2047 of the
  aggregate, of the transformed features and of the column of self-loop weights, and the whole row of biases; for every
  entry (p, q) of the block it forms (aggregate + weight(p) · feature) + bias(q) and writes the block back to the
  same rows of the result. Each entry depends only on the same entry of the aggregate and of the features, on the
  weight of its row and on the bias of its column, and the 25 blocks tile the result: after the region the result array
  is the layer's output array, whatever the arrays held when the region was entered.
-/
import proofs.«157838_j3212635537778_1_alg».proof.Proof.Gen.KernelIdeal.Frame
import proofs.«157838_j3212635537778_1_alg».proof.Proof.LayerEntry
import proofs.«157838_j3212635537778_1_alg».proof.Proof.LibColumnBroadcast
import proofs.«157838_j3212635537778_1_alg».proof.Proof.BlockOrigin
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.GraphConv

variable (V : (c : Dev nD) → (b : Ref sig .tc) → Buf (Elt Ideal) ((c : Thread nD τ).loc b))

/-- What the body stores, at entry (p, q) of the block: the layer's entry of the four loaded blocks, the weight read
    in column 0 of its row and the bias in row 0 of its column. -/
theorem pay5_apply (x0 : Vec Ideal S2048x2 .f32) (x2 : Vec Ideal S2048x1 .f32) (x4 : Vec Ideal S2048x2 .f32) (x9 : Vec Ideal S1x2 .f32)
    (p : Fin 2048) (q : Fin 2) :
    k5_pay1 x0 x2 x4 x9 (ix2 p q) = cell (F := Ideal) (x0 (ix2 p q)) (x2 (ix2 p (0 : Fin 1))) (x4 (ix2 p q)) (x9 (ix2 (0 : Fin 1) q)) := by
  unfold k5_pay1
  simp only [shapeCast_self]
  show ((FloatOps.addf (FloatOps.addf (x0 (ix2 p q)) (FloatOps.mulf (broadcastTo S2048x2 (x2 : FVec Ideal S2048x1 .f32) broadcasts_S2048x1_S2048x2 (ix2 p q)) (x4 (ix2 p q)))) (broadcastTo S2048x2 (x9 : FVec Ideal S1x2 .f32) broadcasts_S1x2_S2048x2 (ix2 p q))) : Ideal .f32) = _
  rw [ColumnBroadcast.broadcastTo_a1_ab_apply, broadcastTo_1b_ab_apply]
  rfl

/-- The index maps over the grid: the aggregate, the features, the weights and the result sit at row block t, the bias
    row stays at the origin. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point t writes back is block t of the layer's output array. -/
theorem flushed5 (c : Dev nD) (t : Fin cfg5.N) :
    (dat5 V c).flushed 4 t = ((cfg5.win 4).blk t).view.read (Elt Ideal)
      (combine (F := Ideal) (V c main_v73 : S51200x2.Idx → Ideal .f32) (V c main_v27 : S51200x1.Idx → Ideal .f32)
        (V c main_v60 : S51200x2.Idx → Ideal .f32) (V c main_v74 : S1x2.Idx → Ideal .f32)) := by
  show (cfg5.win 4).cut (grid5.coords t) ((dat5 V c).after 4 t) = _
  rw [after5_4]
  unfold out5_4
  rw [View.canon_unit_zero offsets_zero]
  simp only [View.ld_unit_zero (S := S2048x2) offsets_zero, View.ld_unit_zero (S := S2048x1) offsets_zero, View.ld_unit_zero (S := S1x2) offsets_zero]
  funext j
  obtain ⟨p, q, rfl⟩ : ∃ (p : Fin 2048) (q : Fin 2), j = ix2 p q := ⟨j 0, j 1, eq_ix2 j⟩
  obtain ⟨e00, e01, e10, e11, e20, e21, e30, e31, e40, e41⟩ := idx5 t
  refine (pay5_apply (iblk5 V c 0 t) (iblk5 V c 2 t) (iblk5 V c 1 t) (iblk5 V c 3 t) p q).trans ?_
  show cell (F := Ideal) _ _ _ _
    = cell (F := Ideal) ((V c main_v73 : S51200x2.Idx → Ideal .f32) (((cfg5.win 4).blk t).view.emb (ix2 p q)))
        ((V c main_v27 : S51200x1.Idx → Ideal .f32) (ix2 ((((cfg5.win 4).blk t).view.emb (ix2 p q)) 0) (0 : Fin 1)))
        ((V c main_v60 : S51200x2.Idx → Ideal .f32) (((cfg5.win 4).blk t).view.emb (ix2 p q)))
        ((V c main_v74 : S1x2.Idx → Ideal .f32) (ix2 (0 : Fin 1) ((((cfg5.win 4).blk t).view.emb (ix2 p q)) 1)))
  refine cell_congr ?_ ?_ ?_ ?_
  · show (V c main_v73 : S51200x2.Idx → Ideal .f32) (((cfg5.win 0).blk t).view.emb (ix2 p q)) = _
    refine congrArg _ (funext fun a => Fin.ext ?_)
    match a with
    | ⟨0, _⟩ => show win5_0.index t (0 : Fin 2) * 2048 + 1 * p.val = win5_4.index t (0 : Fin 2) * 2048 + 1 * p.val; omega
    | ⟨1, _⟩ => show win5_0.index t (1 : Fin 2) * 2 + 1 * q.val = win5_4.index t (1 : Fin 2) * 2 + 1 * q.val; omega
  · show (V c main_v27 : S51200x1.Idx → Ideal .f32) (((cfg5.win 2).blk t).view.emb (ix2 p (0 : Fin 1))) = _
    refine congrArg _ (funext fun a => Fin.ext ?_)
    match a with
    | ⟨0, _⟩ => show win5_2.index t (0 : Fin 2) * 2048 + 1 * p.val = win5_4.index t (0 : Fin 2) * 2048 + 1 * p.val; omega
    | ⟨1, _⟩ => show win5_2.index t (1 : Fin 2) * 1 + 1 * 0 = 0; omega
  · show (V c main_v60 : S51200x2.Idx → Ideal .f32) (((cfg5.win 1).blk t).view.emb (ix2 p q)) = _
    refine congrArg _ (funext fun a => Fin.ext ?_)
    match a with
    | ⟨0, _⟩ => show win5_1.index t (0 : Fin 2) * 2048 + 1 * p.val = win5_4.index t (0 : Fin 2) * 2048 + 1 * p.val; omega
    | ⟨1, _⟩ => show win5_1.index t (1 : Fin 2) * 2 + 1 * q.val = win5_4.index t (1 : Fin 2) * 2 + 1 * q.val; omega
  · show (V c main_v74 : S1x2.Idx → Ideal .f32) (((cfg5.win 3).blk t).view.emb (ix2 (0 : Fin 1) q)) = _
    refine congrArg _ (funext fun a => Fin.ext ?_)
    match a with
    | ⟨0, _⟩ => show win5_3.index t (0 : Fin 2) * 1 + 1 * 0 = 0; omega
    | ⟨1, _⟩ => show win5_3.index t (1 : Fin 2) * 2 + 1 * q.val = win5_4.index t (1 : Fin 2) * 2 + 1 * q.val; omega

/-- An index of the result array lies in point t's block iff each coordinate lies in the block's range. -/
theorem mem_blk5 (t : Fin cfg5.N) (i : S51200x2.Idx) :
    i ∈ ((cfg5.win 4).blk t).view.set ↔ ∀ a : Fin 2, win5_4.index t a * S2048x2.size a ≤ (i a).val ∧ (i a).val < win5_4.index t a * S2048x2.size a + S2048x2.size a := by
  show i ∈ ((View.whole main_v75).slice (win5_4.rect t)).set ↔ _
  rw [View.set_slice_whole, Rect.mem_set_unit]
  exact Iff.rfl

/-- Row r of the result lies in the block of point r / 2048: the blocks tile the array. -/
theorem cover5 (i : S51200x2.Idx) : ∃ t : Fin cfg5.N, (cfg5.win 4).flush t = true ∧ i ∈ ((cfg5.win 4).blk t).view.set := by
  have hN : cfg5.N = 25 := N_5
  have hi0 : (i 0).val < 51200 := (i 0).isLt
  have hi1 : (i 1).val < 2 := (i 1).isLt
  refine ⟨⟨(i 0).val / 2048, by rw [hN]; omega⟩, flush5_4 _, ?_⟩
  rw [mem_blk5]
  obtain ⟨e00, e01, e10, e11, e20, e21, e30, e31, e40, e41⟩ := idx5 ⟨(i 0).val / 2048, by rw [hN]; omega⟩
  intro a
  match a with
  | ⟨0, _⟩ => show win5_4.index _ (0 : Fin 2) * 2048 ≤ (i 0).val ∧ (i 0).val < win5_4.index _ (0 : Fin 2) * 2048 + 2048; rw [e40]; show (i 0).val / 2048 * 2048 ≤ (i 0).val ∧ (i 0).val < (i 0).val / 2048 * 2048 + 2048; omega
  | ⟨1, _⟩ => show win5_4.index _ (1 : Fin 2) * 2 ≤ (i 1).val ∧ (i 1).val < win5_4.index _ (1 : Fin 2) * 2 + 2; rw [e41]; omega

/-- THE REGION'S RESULT ARRAY is the layer's output array of the four arrays its input windows are on. -/
theorem array5 (c : Dev nD) :
    (dat5 V c).arrAt 4 cfg5.N = combine (F := Ideal) (V c main_v73 : S51200x2.Idx → Ideal .f32) (V c main_v27 : S51200x1.Idx → Ideal .f32)
        (V c main_v60 : S51200x2.Idx → Ideal .f32) (V c main_v74 : S1x2.Idx → Ideal .f32) :=
  (dat5 V c).arrAt_eq_of_cover 4 _ (fun t _ => flushed5 V c t) cover5

end Cert.KernelIdeal.Hand

end
-- ==== Proof.KernelStages.lean ====
/-
  The kernel program's result, boundary by boundary, is the reference's result.

  The kernel program and the reference apply the same host operations to the same arrays: the degree count and its
  inverse square root, the edge weights dis(src) · dis(dst), and in each layer the gather of the source rows, their scaling by the
  edge weights and the scatter-add into the target rows; and the mean over each graph's 400 nodes at the end. They differ
  only in how a layer's linear transform and its final combination are computed: the reference by one `dot_general` and
  whole-array additions, the kernel program by two row-blocked kernel regions. A region's result array is the product,
  or the layer's output array, of the arrays it reads (one module per region), and the reference's stage is the same
  product or output array of its earlier stages. So walking through the kernel program's eleven segments, every buffer
  a later step reads holds the reference's corresponding stage of the launch arguments: the buffers written by a
  stretch of host operations by unfolding the stretch, a region's result by the region's module, and a buffer no step in
  between writes by carrying it across each boundary. At the last boundary the result buffer holds the reference's result.
-/
import proofs.«157838_j3212635537778_1_alg».proof.Proof.Gen.KernelIdeal.Frame
import proofs.«157838_j3212635537778_1_alg».proof.Proof.Gen.ReferenceIdeal.Read
import proofs.«157838_j3212635537778_1_alg».proof.Proof.ReferenceStages
import proofs.«157838_j3212635537778_1_alg».proof.Proof.InputProduct
import proofs.«157838_j3212635537778_1_alg».proof.Proof.HiddenProduct
import proofs.«157838_j3212635537778_1_alg».proof.Proof.OutputProduct
import proofs.«157838_j3212635537778_1_alg».proof.Proof.FirstCombine
import proofs.«157838_j3212635537778_1_alg».proof.Proof.SecondCombine
import proofs.«157838_j3212635537778_1_alg».proof.Proof.ThirdCombine
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

set_option maxHeartbeats 400000

/-- A function of four arguments respects equality in each. -/
theorem congr4 {α β γ δ ε : Sort _} (f : α → β → γ → δ → ε) {a a' : α} {b b' : β} {c c' : γ} {d d' : δ}
    (ha : a = a') (hb : b = b') (hc : c = c') (hd : d = d') : f a b c d = f a' b' c' d' := by
  subst ha hb hc hd; rfl

/-! ## What the first stretch of host operations leaves: the edge endpoints, the edge weights, the self-loop weights -/

theorem at_v1_1 (c : Dev nD) : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp <;> rfl

theorem at_v3_1 (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp <;> rfl

theorem at_v25_1 (c : Dev nD) : W1 m ρ c (Proc.devRef .tc main_v25) = Cert.ReferenceIdeal.Read.val_main_v26 (F := Ideal) (m ((c : Thread nD τ).loc main_arg1)) := by
  show StableHlo.after hostOps0 (W0 m ρ c) (Proc.devRef .tc main_v25) = _
  after_results_simp <;> rfl

theorem at_v27_1 (c : Dev nD) : W1 m ρ c (Proc.devRef .tc main_v27) = shapeCast S51200x1 (Cert.ReferenceIdeal.Read.val_main_v40 (F := Ideal) (m ((c : Thread nD τ).loc main_arg1))) shapeCasts_S51200_S51200x1 := by
  show StableHlo.after hostOps0 (W0 m ρ c) (Proc.devRef .tc main_v27) = _
  after_results_simp <;> rfl

theorem at_arg0_1 (c : Dev nD) : W1 m ρ c (Proc.devRef .tc main_arg0) = (m ((c : Thread nD τ).loc main_arg0)) := by
  show StableHlo.after hostOps0 (W0 m ρ c) (Proc.devRef .tc main_arg0) = _
  after_results_simp <;> rfl

theorem at_arg2_1 (c : Dev nD) : W1 m ρ c (Proc.devRef .tc main_arg2) = (m ((c : Thread nD τ).loc main_arg2)) := by
  show StableHlo.after hostOps0 (W0 m ρ c) (Proc.devRef .tc main_arg2) = _
  after_results_simp <;> rfl

theorem at_arg3_1 (c : Dev nD) : W1 m ρ c (Proc.devRef .tc main_arg3) = (m ((c : Thread nD τ).loc main_arg3)) := by
  show StableHlo.after hostOps0 (W0 m ρ c) (Proc.devRef .tc main_arg3) = _
  after_results_simp <;> rfl

theorem at_arg4_1 (c : Dev nD) : W1 m ρ c (Proc.devRef .tc main_arg4) = (m ((c : Thread nD τ).loc main_arg4)) := by
  show StableHlo.after hostOps0 (W0 m ρ c) (Proc.devRef .tc main_arg4) = _
  after_results_simp <;> rfl

theorem at_arg5_1 (c : Dev nD) : W1 m ρ c (Proc.devRef .tc main_arg5) = (m ((c : Thread nD τ).loc main_arg5)) := by
  show StableHlo.after hostOps0 (W0 m ρ c) (Proc.devRef .tc main_arg5) = _
  after_results_simp <;> rfl

theorem at_arg6_1 (c : Dev nD) : W1 m ρ c (Proc.devRef .tc main_arg6) = (m ((c : Thread nD τ).loc main_arg6)) := by
  show StableHlo.after hostOps0 (W0 m ρ c) (Proc.devRef .tc main_arg6) = _
  after_results_simp <;> rfl

theorem at_arg7_1 (c : Dev nD) : W1 m ρ c (Proc.devRef .tc main_arg7) = (m ((c : Thread nD τ).loc main_arg7)) := by
  show StableHlo.after hostOps0 (W0 m ρ c) (Proc.devRef .tc main_arg7) = _
  after_results_simp <;> rfl

/-! ## Buffers no later step writes keep their contents across each boundary -/

theorem keep_v1_2 (c : Dev nD) : W2 m ρ c (Proc.devRef .tc main_v1) = W1 m ρ c (Proc.devRef .tc main_v1) :=
  W2_of_ne m ρ c main_v1 (by decide)
theorem at_v1_2 (c : Dev nD) : W2 m ρ c (Proc.devRef .tc main_v1) = Cert.ReferenceIdeal.Read.val_main_v1 (F := Ideal) (m ((c : Thread nD τ).loc main_arg1)) :=
  (keep_v1_2 m ρ c).trans (at_v1_1 m ρ c)

theorem keep_v1_3 (c : Dev nD) : W3 m ρ c (Proc.devRef .tc main_v1) = W2 m ρ c (Proc.devRef .tc main_v1) := by
  show StableHlo.after hostOps1 (W2 m ρ c) (Proc.devRef .tc main_v1) = _
  after_results_simp
theorem at_v1_3 (c : Dev nD) : W3 m ρ c (Proc.devRef .tc main_v1) = Cert.ReferenceIdeal.Read.val_main_v1 (F := Ideal) (m ((c : Thread nD τ).loc main_arg1)) :=
  (keep_v1_3 m ρ c).trans (at_v1_2 m ρ c)

theorem keep_v1_4 (c : Dev nD) : W4 m ρ c (Proc.devRef .tc main_v1) = W3 m ρ c (Proc.devRef .tc main_v1) :=
  W4_of_ne m ρ c main_v1 (by decide)
theorem at_v1_4 (c : Dev nD) : W4 m ρ c (Proc.devRef .tc main_v1) = Cert.ReferenceIdeal.Read.val_main_v1 (F := Ideal) (m ((c : Thread nD τ).loc main_arg1)) :=
  (keep_v1_4 m ρ c).trans (at_v1_3 m ρ c)

theorem keep_v1_5 (c : Dev nD) : W5 m ρ c (Proc.devRef .tc main_v1) = W4 m ρ c (Proc.devRef .tc main_v1) :=
  W5_of_ne m ρ c main_v1 (by decide)
theorem at_v1_5 (c : Dev nD) : W5 m ρ c (Proc.devRef .tc main_v1) = Cert.ReferenceIdeal.Read.val_main_v1 (F := Ideal) (m ((c : Thread nD τ).loc main_arg1)) :=
  (keep_v1_5 m ρ c).trans (at_v1_4 m ρ c)

theorem keep_v1_6 (c : Dev nD) : W6 m ρ c (Proc.devRef .tc main_v1) = W5 m ρ c (Proc.devRef .tc main_v1) := by
  show StableHlo.after hostOps3 (W5 m ρ c) (Proc.devRef .tc main_v1) = _
  after_results_simp
theorem at_v1_6 (c : Dev nD) : W6 m ρ c (Proc.devRef .tc main_v1) = Cert.ReferenceIdeal.Read.val_main_v1 (F := Ideal) (m ((c : Thread nD τ).loc main_arg1)) :=
  (keep_v1_6 m ρ c).trans (at_v1_5 m ρ c)

theorem keep_v1_7 (c : Dev nD) : W7 m ρ c (Proc.devRef .tc main_v1) = W6 m ρ c (Proc.devRef .tc main_v1) :=
  W7_of_ne m ρ c main_v1 (by decide)
theorem at_v1_7 (c : Dev nD) : W7 m ρ c (Proc.devRef .tc main_v1) = Cert.ReferenceIdeal.Read.val_main_v1 (F := Ideal) (m ((c : Thread nD τ).loc main_arg1)) :=
  (keep_v1_7 m ρ c).trans (at_v1_6 m ρ c)

theorem keep_v1_8 (c : Dev nD) : W8 m ρ c (Proc.devRef .tc main_v1) = W7 m ρ c (Proc.devRef .tc main_v1) :=
  W8_of_ne m ρ c main_v1 (by decide)
theorem at_v1_8 (c : Dev nD) : W8 m ρ c (Proc.devRef .tc main_v1) = Cert.ReferenceIdeal.Read.val_main_v1 (F := Ideal) (m ((c : Thread nD τ).loc main_arg1)) :=
  (keep_v1_8 m ρ c).trans (at_v1_7 m ρ c)

theorem keep_v3_2 (c : Dev nD) : W2 m ρ c (Proc.devRef .tc main_v3) = W1 m ρ c (Proc.devRef .tc main_v3) :=
  W2_of_ne m ρ c main_v3 (by decide)
theorem at_v3_2 (c : Dev nD) : W2 m ρ c (Proc.devRef .tc main_v3) = Cert.ReferenceIdeal.Read.val_main_v3 (F := Ideal) (m ((c : Thread nD τ).loc main_arg1)) :=
  (keep_v3_2 m ρ c).trans (at_v3_1 m ρ c)

theorem keep_v3_3 (c : Dev nD) : W3 m ρ c (Proc.devRef .tc main_v3) = W2 m ρ c (Proc.devRef .tc main_v3) := by
  show StableHlo.after hostOps1 (W2 m ρ c) (Proc.devRef .tc main_v3) = _
  after_results_simp
theorem at_v3_3 (c : Dev nD) : W3 m ρ c (Proc.devRef .tc main_v3) = Cert.ReferenceIdeal.Read.val_main_v3 (F := Ideal) (m ((c : Thread nD τ).loc main_arg1)) :=
  (keep_v3_3 m ρ c).trans (at_v3_2 m ρ c)

theorem keep_v3_4 (c : Dev nD) : W4 m ρ c (Proc.devRef .tc main_v3) = W3 m ρ c (Proc.devRef .tc main_v3) :=
  W4_of_ne m ρ c main_v3 (by decide)
theorem at_v3_4 (c : Dev nD) : W4 m ρ c (Proc.devRef .tc main_v3) = Cert.ReferenceIdeal.Read.val_main_v3 (F := Ideal) (m ((c : Thread nD τ).loc main_arg1)) :=
  (keep_v3_4 m ρ c).trans (at_v3_3 m ρ c)

theorem keep_v3_5 (c : Dev nD) : W5 m ρ c (Proc.devRef .tc main_v3) = W4 m ρ c (Proc.devRef .tc main_v3) :=
  W5_of_ne m ρ c main_v3 (by decide)
theorem at_v3_5 (c : Dev nD) : W5 m ρ c (Proc.devRef .tc main_v3) = Cert.ReferenceIdeal.Read.val_main_v3 (F := Ideal) (m ((c : Thread nD τ).loc main_arg1)) :=
  (keep_v3_5 m ρ c).trans (at_v3_4 m ρ c)

theorem keep_v3_6 (c : Dev nD) : W6 m ρ c (Proc.devRef .tc main_v3) = W5 m ρ c (Proc.devRef .tc main_v3) := by
  show StableHlo.after hostOps3 (W5 m ρ c) (Proc.devRef .tc main_v3) = _
  after_results_simp
theorem at_v3_6 (c : Dev nD) : W6 m ρ c (Proc.devRef .tc main_v3) = Cert.ReferenceIdeal.Read.val_main_v3 (F := Ideal) (m ((c : Thread nD τ).loc main_arg1)) :=
  (keep_v3_6 m ρ c).trans (at_v3_5 m ρ c)

theorem keep_v3_7 (c : Dev nD) : W7 m ρ c (Proc.devRef .tc main_v3) = W6 m ρ c (Proc.devRef .tc main_v3) :=
  W7_of_ne m ρ c main_v3 (by decide)
theorem at_v3_7 (c : Dev nD) : W7 m ρ c (Proc.devRef .tc main_v3) = Cert.ReferenceIdeal.Read.val_main_v3 (F := Ideal) (m ((c : Thread nD τ).loc main_arg1)) :=
  (keep_v3_7 m ρ c).trans (at_v3_6 m ρ c)

theorem keep_v3_8 (c : Dev nD) : W8 m ρ c (Proc.devRef .tc main_v3) = W7 m ρ c (Proc.devRef .tc main_v3) :=
  W8_of_ne m ρ c main_v3 (by decide)
theorem at_v3_8 (c : Dev nD) : W8 m ρ c (Proc.devRef .tc main_v3) = Cert.ReferenceIdeal.Read.val_main_v3 (F := Ideal) (m ((c : Thread nD τ).loc main_arg1)) :=
  (keep_v3_8 m ρ c).trans (at_v3_7 m ρ c)

theorem keep_v25_2 (c : Dev nD) : W2 m ρ c (Proc.devRef .tc main_v25) = W1 m ρ c (Proc.devRef .tc main_v25) :=
  W2_of_ne m ρ c main_v25 (by decide)
theorem at_v25_2 (c : Dev nD) : W2 m ρ c (Proc.devRef .tc main_v25) = Cert.ReferenceIdeal.Read.val_main_v26 (F := Ideal) (m ((c : Thread nD τ).loc main_arg1)) :=
  (keep_v25_2 m ρ c).trans (at_v25_1 m ρ c)

theorem keep_v25_3 (c : Dev nD) : W3 m ρ c (Proc.devRef .tc main_v25) = W2 m ρ c (Proc.devRef .tc main_v25) := by
  show StableHlo.after hostOps1 (W2 m ρ c) (Proc.devRef .tc main_v25) = _
  after_results_simp
theorem at_v25_3 (c : Dev nD) : W3 m ρ c (Proc.devRef .tc main_v25) = Cert.ReferenceIdeal.Read.val_main_v26 (F := Ideal) (m ((c : Thread nD τ).loc main_arg1)) :=
  (keep_v25_3 m ρ c).trans (at_v25_2 m ρ c)

theorem keep_v25_4 (c : Dev nD) : W4 m ρ c (Proc.devRef .tc main_v25) = W3 m ρ c (Proc.devRef .tc main_v25) :=
  W4_of_ne m ρ c main_v25 (by decide)
theorem at_v25_4 (c : Dev nD) : W4 m ρ c (Proc.devRef .tc main_v25) = Cert.ReferenceIdeal.Read.val_main_v26 (F := Ideal) (m ((c : Thread nD τ).loc main_arg1)) :=
  (keep_v25_4 m ρ c).trans (at_v25_3 m ρ c)

theorem keep_v25_5 (c : Dev nD) : W5 m ρ c (Proc.devRef .tc main_v25) = W4 m ρ c (Proc.devRef .tc main_v25) :=
  W5_of_ne m ρ c main_v25 (by decide)
theorem at_v25_5 (c : Dev nD) : W5 m ρ c (Proc.devRef .tc main_v25) = Cert.ReferenceIdeal.Read.val_main_v26 (F := Ideal) (m ((c : Thread nD τ).loc main_arg1)) :=
  (keep_v25_5 m ρ c).trans (at_v25_4 m ρ c)

theorem keep_v25_6 (c : Dev nD) : W6 m ρ c (Proc.devRef .tc main_v25) = W5 m ρ c (Proc.devRef .tc main_v25) := by
  show StableHlo.after hostOps3 (W5 m ρ c) (Proc.devRef .tc main_v25) = _
  after_results_simp
theorem at_v25_6 (c : Dev nD) : W6 m ρ c (Proc.devRef .tc main_v25) = Cert.ReferenceIdeal.Read.val_main_v26 (F := Ideal) (m ((c : Thread nD τ).loc main_arg1)) :=
  (keep_v25_6 m ρ c).trans (at_v25_5 m ρ c)

theorem keep_v25_7 (c : Dev nD) : W7 m ρ c (Proc.devRef .tc main_v25) = W6 m ρ c (Proc.devRef .tc main_v25) :=
  W7_of_ne m ρ c main_v25 (by decide)
theorem at_v25_7 (c : Dev nD) : W7 m ρ c (Proc.devRef .tc main_v25) = Cert.ReferenceIdeal.Read.val_main_v26 (F := Ideal) (m ((c : Thread nD τ).loc main_arg1)) :=
  (keep_v25_7 m ρ c).trans (at_v25_6 m ρ c)

theorem keep_v25_8 (c : Dev nD) : W8 m ρ c (Proc.devRef .tc main_v25) = W7 m ρ c (Proc.devRef .tc main_v25) :=
  W8_of_ne m ρ c main_v25 (by decide)
theorem at_v25_8 (c : Dev nD) : W8 m ρ c (Proc.devRef .tc main_v25) = Cert.ReferenceIdeal.Read.val_main_v26 (F := Ideal) (m ((c : Thread nD τ).loc main_arg1)) :=
  (keep_v25_8 m ρ c).trans (at_v25_7 m ρ c)

theorem keep_v27_2 (c : Dev nD) : W2 m ρ c (Proc.devRef .tc main_v27) = W1 m ρ c (Proc.devRef .tc main_v27) :=
  W2_of_ne m ρ c main_v27 (by decide)
theorem at_v27_2 (c : Dev nD) : W2 m ρ c (Proc.devRef .tc main_v27) = shapeCast S51200x1 (Cert.ReferenceIdeal.Read.val_main_v40 (F := Ideal) (m ((c : Thread nD τ).loc main_arg1))) shapeCasts_S51200_S51200x1 :=
  (keep_v27_2 m ρ c).trans (at_v27_1 m ρ c)

theorem keep_v27_3 (c : Dev nD) : W3 m ρ c (Proc.devRef .tc main_v27) = W2 m ρ c (Proc.devRef .tc main_v27) := by
  show StableHlo.after hostOps1 (W2 m ρ c) (Proc.devRef .tc main_v27) = _
  after_results_simp
theorem at_v27_3 (c : Dev nD) : W3 m ρ c (Proc.devRef .tc main_v27) = shapeCast S51200x1 (Cert.ReferenceIdeal.Read.val_main_v40 (F := Ideal) (m ((c : Thread nD τ).loc main_arg1))) shapeCasts_S51200_S51200x1 :=
  (keep_v27_3 m ρ c).trans (at_v27_2 m ρ c)

theorem keep_v27_4 (c : Dev nD) : W4 m ρ c (Proc.devRef .tc main_v27) = W3 m ρ c (Proc.devRef .tc main_v27) :=
  (W4_arr m ρ c 2).trans (((dat1 (V3 m ρ) c).arrAt_in 2 rfl _).trans (A_eq1 (V3 m ρ) c 2))
theorem at_v27_4 (c : Dev nD) : W4 m ρ c (Proc.devRef .tc main_v27) = shapeCast S51200x1 (Cert.ReferenceIdeal.Read.val_main_v40 (F := Ideal) (m ((c : Thread nD τ).loc main_arg1))) shapeCasts_S51200_S51200x1 :=
  (keep_v27_4 m ρ c).trans (at_v27_3 m ρ c)

theorem keep_v27_5 (c : Dev nD) : W5 m ρ c (Proc.devRef .tc main_v27) = W4 m ρ c (Proc.devRef .tc main_v27) :=
  W5_of_ne m ρ c main_v27 (by decide)
theorem at_v27_5 (c : Dev nD) : W5 m ρ c (Proc.devRef .tc main_v27) = shapeCast S51200x1 (Cert.ReferenceIdeal.Read.val_main_v40 (F := Ideal) (m ((c : Thread nD τ).loc main_arg1))) shapeCasts_S51200_S51200x1 :=
  (keep_v27_5 m ρ c).trans (at_v27_4 m ρ c)

theorem keep_v27_6 (c : Dev nD) : W6 m ρ c (Proc.devRef .tc main_v27) = W5 m ρ c (Proc.devRef .tc main_v27) := by
  show StableHlo.after hostOps3 (W5 m ρ c) (Proc.devRef .tc main_v27) = _
  after_results_simp
theorem at_v27_6 (c : Dev nD) : W6 m ρ c (Proc.devRef .tc main_v27) = shapeCast S51200x1 (Cert.ReferenceIdeal.Read.val_main_v40 (F := Ideal) (m ((c : Thread nD τ).loc main_arg1))) shapeCasts_S51200_S51200x1 :=
  (keep_v27_6 m ρ c).trans (at_v27_5 m ρ c)

theorem keep_v27_7 (c : Dev nD) : W7 m ρ c (Proc.devRef .tc main_v27) = W6 m ρ c (Proc.devRef .tc main_v27) :=
  (W7_arr m ρ c 2).trans (((dat3 (V6 m ρ) c).arrAt_in 2 rfl _).trans (A_eq3 (V6 m ρ) c 2))
theorem at_v27_7 (c : Dev nD) : W7 m ρ c (Proc.devRef .tc main_v27) = shapeCast S51200x1 (Cert.ReferenceIdeal.Read.val_main_v40 (F := Ideal) (m ((c : Thread nD τ).loc main_arg1))) shapeCasts_S51200_S51200x1 :=
  (keep_v27_7 m ρ c).trans (at_v27_6 m ρ c)

theorem keep_v27_8 (c : Dev nD) : W8 m ρ c (Proc.devRef .tc main_v27) = W7 m ρ c (Proc.devRef .tc main_v27) :=
  W8_of_ne m ρ c main_v27 (by decide)
theorem at_v27_8 (c : Dev nD) : W8 m ρ c (Proc.devRef .tc main_v27) = shapeCast S51200x1 (Cert.ReferenceIdeal.Read.val_main_v40 (F := Ideal) (m ((c : Thread nD τ).loc main_arg1))) shapeCasts_S51200_S51200x1 :=
  (keep_v27_8 m ρ c).trans (at_v27_7 m ρ c)

theorem keep_v27_9 (c : Dev nD) : W9 m ρ c (Proc.devRef .tc main_v27) = W8 m ρ c (Proc.devRef .tc main_v27) := by
  show StableHlo.after hostOps5 (W8 m ρ c) (Proc.devRef .tc main_v27) = _
  after_results_simp
theorem at_v27_9 (c : Dev nD) : W9 m ρ c (Proc.devRef .tc main_v27) = shapeCast S51200x1 (Cert.ReferenceIdeal.Read.val_main_v40 (F := Ideal) (m ((c : Thread nD τ).loc main_arg1))) shapeCasts_S51200_S51200x1 :=
  (keep_v27_9 m ρ c).trans (at_v27_8 m ρ c)

theorem keep_arg3_2 (c : Dev nD) : W2 m ρ c (Proc.devRef .tc main_arg3) = W1 m ρ c (Proc.devRef .tc main_arg3) :=
  W2_of_ne m ρ c main_arg3 (by decide)
theorem at_arg3_2 (c : Dev nD) : W2 m ρ c (Proc.devRef .tc main_arg3) = (m ((c : Thread nD τ).loc main_arg3)) :=
  (keep_arg3_2 m ρ c).trans (at_arg3_1 m ρ c)

theorem keep_arg4_2 (c : Dev nD) : W2 m ρ c (Proc.devRef .tc main_arg4) = W1 m ρ c (Proc.devRef .tc main_arg4) :=
  W2_of_ne m ρ c main_arg4 (by decide)
theorem at_arg4_2 (c : Dev nD) : W2 m ρ c (Proc.devRef .tc main_arg4) = (m ((c : Thread nD τ).loc main_arg4)) :=
  (keep_arg4_2 m ρ c).trans (at_arg4_1 m ρ c)

theorem keep_arg4_3 (c : Dev nD) : W3 m ρ c (Proc.devRef .tc main_arg4) = W2 m ρ c (Proc.devRef .tc main_arg4) := by
  show StableHlo.after hostOps1 (W2 m ρ c) (Proc.devRef .tc main_arg4) = _
  after_results_simp
theorem at_arg4_3 (c : Dev nD) : W3 m ρ c (Proc.devRef .tc main_arg4) = (m ((c : Thread nD τ).loc main_arg4)) :=
  (keep_arg4_3 m ρ c).trans (at_arg4_2 m ρ c)

theorem keep_arg4_4 (c : Dev nD) : W4 m ρ c (Proc.devRef .tc main_arg4) = W3 m ρ c (Proc.devRef .tc main_arg4) :=
  W4_of_ne m ρ c main_arg4 (by decide)
theorem at_arg4_4 (c : Dev nD) : W4 m ρ c (Proc.devRef .tc main_arg4) = (m ((c : Thread nD τ).loc main_arg4)) :=
  (keep_arg4_4 m ρ c).trans (at_arg4_3 m ρ c)

theorem keep_arg5_2 (c : Dev nD) : W2 m ρ c (Proc.devRef .tc main_arg5) = W1 m ρ c (Proc.devRef .tc main_arg5) :=
  W2_of_ne m ρ c main_arg5 (by decide)
theorem at_arg5_2 (c : Dev nD) : W2 m ρ c (Proc.devRef .tc main_arg5) = (m ((c : Thread nD τ).loc main_arg5)) :=
  (keep_arg5_2 m ρ c).trans (at_arg5_1 m ρ c)

theorem keep_arg5_3 (c : Dev nD) : W3 m ρ c (Proc.devRef .tc main_arg5) = W2 m ρ c (Proc.devRef .tc main_arg5) := by
  show StableHlo.after hostOps1 (W2 m ρ c) (Proc.devRef .tc main_arg5) = _
  after_results_simp
theorem at_arg5_3 (c : Dev nD) : W3 m ρ c (Proc.devRef .tc main_arg5) = (m ((c : Thread nD τ).loc main_arg5)) :=
  (keep_arg5_3 m ρ c).trans (at_arg5_2 m ρ c)

theorem keep_arg5_4 (c : Dev nD) : W4 m ρ c (Proc.devRef .tc main_arg5) = W3 m ρ c (Proc.devRef .tc main_arg5) :=
  W4_of_ne m ρ c main_arg5 (by decide)
theorem at_arg5_4 (c : Dev nD) : W4 m ρ c (Proc.devRef .tc main_arg5) = (m ((c : Thread nD τ).loc main_arg5)) :=
  (keep_arg5_4 m ρ c).trans (at_arg5_3 m ρ c)

theorem keep_arg5_5 (c : Dev nD) : W5 m ρ c (Proc.devRef .tc main_arg5) = W4 m ρ c (Proc.devRef .tc main_arg5) :=
  W5_of_ne m ρ c main_arg5 (by decide)
theorem at_arg5_5 (c : Dev nD) : W5 m ρ c (Proc.devRef .tc main_arg5) = (m ((c : Thread nD τ).loc main_arg5)) :=
  (keep_arg5_5 m ρ c).trans (at_arg5_4 m ρ c)

theorem keep_arg6_2 (c : Dev nD) : W2 m ρ c (Proc.devRef .tc main_arg6) = W1 m ρ c (Proc.devRef .tc main_arg6) :=
  W2_of_ne m ρ c main_arg6 (by decide)
theorem at_arg6_2 (c : Dev nD) : W2 m ρ c (Proc.devRef .tc main_arg6) = (m ((c : Thread nD τ).loc main_arg6)) :=
  (keep_arg6_2 m ρ c).trans (at_arg6_1 m ρ c)

theorem keep_arg6_3 (c : Dev nD) : W3 m ρ c (Proc.devRef .tc main_arg6) = W2 m ρ c (Proc.devRef .tc main_arg6) := by
  show StableHlo.after hostOps1 (W2 m ρ c) (Proc.devRef .tc main_arg6) = _
  after_results_simp
theorem at_arg6_3 (c : Dev nD) : W3 m ρ c (Proc.devRef .tc main_arg6) = (m ((c : Thread nD τ).loc main_arg6)) :=
  (keep_arg6_3 m ρ c).trans (at_arg6_2 m ρ c)

theorem keep_arg6_4 (c : Dev nD) : W4 m ρ c (Proc.devRef .tc main_arg6) = W3 m ρ c (Proc.devRef .tc main_arg6) :=
  W4_of_ne m ρ c main_arg6 (by decide)
theorem at_arg6_4 (c : Dev nD) : W4 m ρ c (Proc.devRef .tc main_arg6) = (m ((c : Thread nD τ).loc main_arg6)) :=
  (keep_arg6_4 m ρ c).trans (at_arg6_3 m ρ c)

theorem keep_arg6_5 (c : Dev nD) : W5 m ρ c (Proc.devRef .tc main_arg6) = W4 m ρ c (Proc.devRef .tc main_arg6) :=
  W5_of_ne m ρ c main_arg6 (by decide)
theorem at_arg6_5 (c : Dev nD) : W5 m ρ c (Proc.devRef .tc main_arg6) = (m ((c : Thread nD τ).loc main_arg6)) :=
  (keep_arg6_5 m ρ c).trans (at_arg6_4 m ρ c)

theorem keep_arg6_6 (c : Dev nD) : W6 m ρ c (Proc.devRef .tc main_arg6) = W5 m ρ c (Proc.devRef .tc main_arg6) := by
  show StableHlo.after hostOps3 (W5 m ρ c) (Proc.devRef .tc main_arg6) = _
  after_results_simp
theorem at_arg6_6 (c : Dev nD) : W6 m ρ c (Proc.devRef .tc main_arg6) = (m ((c : Thread nD τ).loc main_arg6)) :=
  (keep_arg6_6 m ρ c).trans (at_arg6_5 m ρ c)

theorem keep_arg6_7 (c : Dev nD) : W7 m ρ c (Proc.devRef .tc main_arg6) = W6 m ρ c (Proc.devRef .tc main_arg6) :=
  W7_of_ne m ρ c main_arg6 (by decide)
theorem at_arg6_7 (c : Dev nD) : W7 m ρ c (Proc.devRef .tc main_arg6) = (m ((c : Thread nD τ).loc main_arg6)) :=
  (keep_arg6_7 m ρ c).trans (at_arg6_6 m ρ c)

theorem keep_arg7_2 (c : Dev nD) : W2 m ρ c (Proc.devRef .tc main_arg7) = W1 m ρ c (Proc.devRef .tc main_arg7) :=
  W2_of_ne m ρ c main_arg7 (by decide)
theorem at_arg7_2 (c : Dev nD) : W2 m ρ c (Proc.devRef .tc main_arg7) = (m ((c : Thread nD τ).loc main_arg7)) :=
  (keep_arg7_2 m ρ c).trans (at_arg7_1 m ρ c)

theorem keep_arg7_3 (c : Dev nD) : W3 m ρ c (Proc.devRef .tc main_arg7) = W2 m ρ c (Proc.devRef .tc main_arg7) := by
  show StableHlo.after hostOps1 (W2 m ρ c) (Proc.devRef .tc main_arg7) = _
  after_results_simp
theorem at_arg7_3 (c : Dev nD) : W3 m ρ c (Proc.devRef .tc main_arg7) = (m ((c : Thread nD τ).loc main_arg7)) :=
  (keep_arg7_3 m ρ c).trans (at_arg7_2 m ρ c)

theorem keep_arg7_4 (c : Dev nD) : W4 m ρ c (Proc.devRef .tc main_arg7) = W3 m ρ c (Proc.devRef .tc main_arg7) :=
  W4_of_ne m ρ c main_arg7 (by decide)
theorem at_arg7_4 (c : Dev nD) : W4 m ρ c (Proc.devRef .tc main_arg7) = (m ((c : Thread nD τ).loc main_arg7)) :=
  (keep_arg7_4 m ρ c).trans (at_arg7_3 m ρ c)

theorem keep_arg7_5 (c : Dev nD) : W5 m ρ c (Proc.devRef .tc main_arg7) = W4 m ρ c (Proc.devRef .tc main_arg7) :=
  W5_of_ne m ρ c main_arg7 (by decide)
theorem at_arg7_5 (c : Dev nD) : W5 m ρ c (Proc.devRef .tc main_arg7) = (m ((c : Thread nD τ).loc main_arg7)) :=
  (keep_arg7_5 m ρ c).trans (at_arg7_4 m ρ c)

theorem keep_arg7_6 (c : Dev nD) : W6 m ρ c (Proc.devRef .tc main_arg7) = W5 m ρ c (Proc.devRef .tc main_arg7) := by
  show StableHlo.after hostOps3 (W5 m ρ c) (Proc.devRef .tc main_arg7) = _
  after_results_simp
theorem at_arg7_6 (c : Dev nD) : W6 m ρ c (Proc.devRef .tc main_arg7) = (m ((c : Thread nD τ).loc main_arg7)) :=
  (keep_arg7_6 m ρ c).trans (at_arg7_5 m ρ c)

theorem keep_arg7_7 (c : Dev nD) : W7 m ρ c (Proc.devRef .tc main_arg7) = W6 m ρ c (Proc.devRef .tc main_arg7) :=
  W7_of_ne m ρ c main_arg7 (by decide)
theorem at_arg7_7 (c : Dev nD) : W7 m ρ c (Proc.devRef .tc main_arg7) = (m ((c : Thread nD τ).loc main_arg7)) :=
  (keep_arg7_7 m ρ c).trans (at_arg7_6 m ρ c)

theorem keep_arg7_8 (c : Dev nD) : W8 m ρ c (Proc.devRef .tc main_arg7) = W7 m ρ c (Proc.devRef .tc main_arg7) :=
  W8_of_ne m ρ c main_arg7 (by decide)
theorem at_arg7_8 (c : Dev nD) : W8 m ρ c (Proc.devRef .tc main_arg7) = (m ((c : Thread nD τ).loc main_arg7)) :=
  (keep_arg7_8 m ρ c).trans (at_arg7_7 m ρ c)

/-! ## The three layers, boundary by boundary -/

theorem at_v28_2 (c : Dev nD) : W2 m ρ c (Proc.devRef .tc main_v28) = Cert.ReferenceIdeal.Read.val_main_v11 (F := Ideal) (m ((c : Thread nD τ).loc main_arg0)) (m ((c : Thread nD τ).loc main_arg2)) := by
  refine (W2_arr m ρ c 2).trans ?_
  refine (array0 (V1 m ρ) c).trans ?_
  refine (congrArg₂ (MatrixProduct.prod (φ₁ := .f32) (φ₂ := .f32)) (at_arg0_1 m ρ c) (at_arg2_1 m ρ c)).trans ?_
  exact (Cert.ReferenceIdeal.Stages.first_product (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm

theorem keep_v28_3 (c : Dev nD) : W3 m ρ c (Proc.devRef .tc main_v28) = W2 m ρ c (Proc.devRef .tc main_v28) := by
  show StableHlo.after hostOps1 (W2 m ρ c) (Proc.devRef .tc main_v28) = _
  after_results_simp
theorem at_v28_3 (c : Dev nD) : W3 m ρ c (Proc.devRef .tc main_v28) = Cert.ReferenceIdeal.Read.val_main_v11 (F := Ideal) (m ((c : Thread nD τ).loc main_arg0)) (m ((c : Thread nD τ).loc main_arg2)) :=
  (keep_v28_3 m ρ c).trans (at_v28_2 m ρ c)

theorem at_v41_3 (c : Dev nD) : W3 m ρ c (Proc.devRef .tc main_v41) = Cert.ReferenceIdeal.Read.val_main_v39 (F := Ideal) (m ((c : Thread nD τ).loc main_arg0)) (m ((c : Thread nD τ).loc main_arg1)) (m ((c : Thread nD τ).loc main_arg2)) := by
  show StableHlo.after hostOps1 (W2 m ρ c) (Proc.devRef .tc main_v41) = _
  after_results_simp
  rw [at_v1_2 m ρ c, at_v3_2 m ρ c, at_v25_2 m ρ c, at_v28_2 m ρ c]
  rfl

theorem at_v42_3 (c : Dev nD) : W3 m ρ c (Proc.devRef .tc main_v42) = shapeCast S1x256 (m ((c : Thread nD τ).loc main_arg3)) shapeCasts_S256_S1x256 := by
  show StableHlo.after hostOps1 (W2 m ρ c) (Proc.devRef .tc main_v42) = _
  after_results_simp
  rw [at_arg3_2 m ρ c]
  rfl

theorem at_v43_4 (c : Dev nD) : W4 m ρ c (Proc.devRef .tc main_v43) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) := by
  refine (W4_arr m ρ c 4).trans ?_
  refine (array1 (V3 m ρ) c).trans ?_
  refine (congr4 (Cert.GraphConv.combineRelu (F := Ideal)) (at_v41_3 m ρ c) (at_v27_3 m ρ c) (at_v28_3 m ρ c) (at_v42_3 m ρ c)).trans ?_
  exact (Cert.ReferenceIdeal.Stages.first_output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _ _).symm

theorem at_v44_5 (c : Dev nD) : W5 m ρ c (Proc.devRef .tc main_v44) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ?_
  refine (array2 (V4 m ρ) c).trans ?_
  refine (congrArg₂ (MatrixProduct.prod (φ₁ := .f32) (φ₂ := .f32)) (at_v43_4 m ρ c) (at_arg4_4 m ρ c)).trans ?_
  exact (Cert.ReferenceIdeal.Stages.second_product (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm

theorem keep_v44_6 (c : Dev nD) : W6 m ρ c (Proc.devRef .tc main_v44) = W5 m ρ c (Proc.devRef .tc main_v44) := by
  show StableHlo.after hostOps3 (W5 m ρ c) (Proc.devRef .tc main_v44) = _
  after_results_simp
theorem at_v44_6 (c : Dev nD) : W6 m ρ c (Proc.devRef .tc main_v44) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (keep_v44_6 m ρ c).trans (at_v44_5 m ρ c)

theorem at_v57_6 (c : Dev nD) : W6 m ρ c (Proc.devRef .tc main_v57) = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v57) = _
  after_results_simp
  rw [at_v1_5 m ρ c, at_v3_5 m ρ c, at_v25_5 m ρ c, at_v44_5 m ρ c]
  rfl

theorem at_v58_6 (c : Dev nD) : W6 m ρ c (Proc.devRef .tc main_v58) = shapeCast S1x256 (m ((c : Thread nD τ).loc main_arg5)) shapeCasts_S256_S1x256 := by
  show StableHlo.after hostOps3 (W5 m ρ c) (Proc.devRef .tc main_v58) = _
  after_results_simp
  rw [at_arg5_5 m ρ c]
  rfl

theorem at_v59_7 (c : Dev nD) : W7 m ρ c (Proc.devRef .tc main_v59) = Cert.ReferenceIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ?_
  refine (array3 (V6 m ρ) c).trans ?_
  refine (congr4 (Cert.GraphConv.combineRelu (F := Ideal)) (at_v57_6 m ρ c) (at_v27_6 m ρ c) (at_v44_6 m ρ c) (at_v58_6 m ρ c)).trans ?_
  exact (Cert.ReferenceIdeal.Stages.second_output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _ _).symm

theorem at_v60_8 (c : Dev nD) : W8 m ρ c (Proc.devRef .tc main_v60) = Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ?_
  refine (array4 (V7 m ρ) c).trans ?_
  refine (congrArg₂ (MatrixProduct.prod (φ₁ := .f32) (φ₂ := .f32)) (at_v59_7 m ρ c) (at_arg6_7 m ρ c)).trans ?_
  exact (Cert.ReferenceIdeal.Stages.third_product (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm

theorem keep_v60_9 (c : Dev nD) : W9 m ρ c (Proc.devRef .tc main_v60) = W8 m ρ c (Proc.devRef .tc main_v60) := by
  show StableHlo.after hostOps5 (W8 m ρ c) (Proc.devRef .tc main_v60) = _
  after_results_simp
theorem at_v60_9 (c : Dev nD) : W9 m ρ c (Proc.devRef .tc main_v60) = Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (keep_v60_9 m ρ c).trans (at_v60_8 m ρ c)

theorem at_v73_9 (c : Dev nD) : W9 m ρ c (Proc.devRef .tc main_v73) = Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W8 m ρ c) (Proc.devRef .tc main_v73) = _
  after_results_simp
  rw [at_v1_8 m ρ c, at_v3_8 m ρ c, at_v25_8 m ρ c, at_v60_8 m ρ c]
  rfl

theorem at_v74_9 (c : Dev nD) : W9 m ρ c (Proc.devRef .tc main_v74) = shapeCast S1x2 (m ((c : Thread nD τ).loc main_arg7)) shapeCasts_S2_S1x2 := by
  show StableHlo.after hostOps5 (W8 m ρ c) (Proc.devRef .tc main_v74) = _
  after_results_simp
  rw [at_arg7_8 m ρ c]
  rfl

theorem at_v75_10 (c : Dev nD) : W10 m ρ c (Proc.devRef .tc main_v75) = Cert.ReferenceIdeal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 4).trans ?_
  refine (array5 (V9 m ρ) c).trans ?_
  refine (congr4 (Cert.GraphConv.combine (F := Ideal)) (at_v73_9 m ρ c) (at_v27_9 m ρ c) (at_v60_9 m ρ c) (at_v74_9 m ρ c)).trans ?_
  exact (Cert.ReferenceIdeal.Stages.third_output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _ _).symm

theorem at_v79_11 (c : Dev nD) : W11 m ρ c (Proc.devRef .tc main_v79) = Cert.ReferenceIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps6 (W10 m ρ c) (Proc.devRef .tc main_v79) = _
  after_results_simp
  rw [at_v75_10 m ρ c]
  rfl

end Cert.KernelIdeal.Hand

end
-- ==== Proof.lean ====
/-
  A three-layer graph convolution with mean pooling, computed by a program with six row-blocked kernel regions, equals
  its plain reference on the extended reals.

  Both programs take node features x [51200, 400], an edge list [2, 819200] and three layers' weights and biases. Both
  count each node's incoming edges, add one for the self-loop and take the inverse square root dis; both weight an edge by
  dis(src) · dis(dst); and in each layer both form h = in · W, add into row dst of an aggregate the row src of h times the
  edge weight, and output (aggregate + (dis · dis) · h) + b — cut off at zero in the first two layers — before averaging the
  last layer's rows over each graph's 400 nodes. The host operations (count, gather, scatter-add, mean) are the same
  operations applied in the same order in both programs. The programs differ in two steps of each layer: the reference
  forms in · W by one matrix product and the output by whole-array additions, while the kernel program forms each of them
  in 25 blocks of 2048 rows inside a kernel region (with casts to bfloat16 before the product, which change nothing on
  the extended reals). A row of a product depends on the same row of the left factor only, an output entry on the same
  entry of the aggregate and of h, its row's weight and its column's bias, and the blocks tile the rows: so each region
  leaves exactly the reference's array, and the two results are the same term of the arguments. No law of arithmetic is
  used beyond that, and the inputs' finiteness is not needed.

  The three frames are the generated ones (the reference's is its generated run with the result dropped); the idealized
  kernel program is the kernel program's own text read on the extended reals, so there is nothing to preserve.
-/
import proofs.«157838_j3212635537778_1_alg».proof.Defs
import proofs.«157838_j3212635537778_1_alg».proof.Proof.Gen.Kernel
import proofs.«157838_j3212635537778_1_alg».proof.Proof.Gen.Kernel.Skeleton
import proofs.«157838_j3212635537778_1_alg».proof.Proof.Gen.Kernel.Launch
import proofs.«157838_j3212635537778_1_alg».proof.Proof.Gen.Kernel.Points
import proofs.«157838_j3212635537778_1_alg».proof.Proof.Gen.Kernel.Frame
import proofs.«157838_j3212635537778_1_alg».proof.Proof.Gen.KernelIdeal
import proofs.«157838_j3212635537778_1_alg».proof.Proof.Gen.KernelIdeal.Skeleton
import proofs.«157838_j3212635537778_1_alg».proof.Proof.Gen.KernelIdeal.Launch
import proofs.«157838_j3212635537778_1_alg».proof.Proof.Gen.KernelIdeal.Points
import proofs.«157838_j3212635537778_1_alg».proof.Proof.Gen.KernelIdeal.Frame
import proofs.«157838_j3212635537778_1_alg».proof.Proof.Gen.ReferenceIdeal
import proofs.«157838_j3212635537778_1_alg».proof.Proof.Gen.Pre_finite_inputs
import proofs.«157838_j3212635537778_1_alg».proof.Proof.Gen.ReferenceIdeal.Run
import proofs.«157838_j3212635537778_1_alg».proof.Proof.Gen.ReferenceIdeal.Read
import proofs.«157838_j3212635537778_1_alg».proof.Proof.RunResult
import proofs.«157838_j3212635537778_1_alg».proof.Proof.KernelStages
import Idealize.ShloMosaic.Adequacy
import Idealize.ShloMosaic.Init

noncomputable section

namespace Cert.Proof

open Idealize.ShloMosaic Idealize.SL.Sem

/-- On the extended reals the kernel program and the reference, run from memories that agree on the arguments, both
    terminate with the result at the reference's last stage of the arguments, and leave the arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v127 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.Hand.at_v79_11 m ρ c), (h c).2⟩)
      (Cert.KernelIdeal.Hand.run_result (F := Ideal) m ρ)
  · refine (θ_run Cert.ReferenceIdeal.defs _ _).mono (fun r h c => ⟨?_, (h c).2⟩) (Cert.ReferenceIdeal.Value.run (F := Ideal) m' ρ')
    obtain ⟨a0, a1, a2, a3, a4, a5, a6, a7⟩ := hagree c
    rw [(h c).1, Cert.ReferenceIdeal.Read.val_main_v127_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
